-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x64 : Shape := ⟨2, ![200000, 64]⟩
abbrev S250000 : Shape := ⟨1, ![250000]⟩
abbrev S500000 : Shape := ⟨1, ![500000]⟩
abbrev S750000 : Shape := ⟨1, ![750000]⟩
abbrev S64x64 : Shape := ⟨2, ![64, 64]⟩
abbrev S64 : Shape := ⟨1, ![64]⟩
abbrev S128x128 : Shape := ⟨2, ![128, 128]⟩
abbrev S128 : Shape := ⟨1, ![128]⟩
abbrev S192x192 : Shape := ⟨2, ![192, 192]⟩
abbrev S192 : Shape := ⟨1, ![192]⟩
abbrev S128x64 : Shape := ⟨2, ![128, 64]⟩
abbrev S_ : Shape := ⟨0, ![]⟩

class Facts : Prop where
  bcast_S_S200000x64 : S_.BroadcastsInDim S200000x64 (![] : Fin 0 → Fin S200000x64.rank)
  reducesTo_S200000x64_S_d0_1 : S200000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S192x192 : S_.BroadcastsInDim S192x192 (![] : Fin 0 → Fin S192x192.rank)
  reducesTo_S192x192_S_d0_1 : S192x192.ReducesTo [0, 1] S_
  bcast_S_S192 : S_.BroadcastsInDim S192 (![] : Fin 0 → Fin S192.rank)
  reducesTo_S192_S_d0 : S192.ReducesTo [0] S_
  bcast_S_S128x64 : S_.BroadcastsInDim S128x64 (![] : Fin 0 → Fin S128x64.rank)
  reducesTo_S128x64_S_d0_1 : S128x64.ReducesTo [0, 1] S_

variable [Facts]

def fn_part4 {F : FTy → Type} [FloatOps F] (main_arg17 : FVec F S128 .f32) (main_arg18 : FVec F S128x64 .f32) (main_arg19 : FVec F S64 .f32) (main_v63 : IVec S_ 1) (main_v67 : IVec S_ 1) : IVec S_ 1 :=
  let main_v68 : IVec S_ 1 := andi main_v63 main_v67
  let main_v69 : FVec F S128 .f32 := Host.absf main_arg17
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x64 .f32 := Host.absf main_arg18
  let main_cst_28 : FVec F S_ .f32 := constant S_ .f32 0x7F800000#32
  let main_v75 : FVec F S128x64 .f32 := broadcastInDim S128x64 ![] bcast_S_S128x64 main_cst_28
  let main_v76 : IVec S128x64 1 := cmpf .olt main_v74 main_v75
  let main_c_29 : IVec S_ 1 := constantI S_ 1 1#1
  let main_v77 : IVec S_ 1 := (fun x v => Host.reduce IntOp.andi x v reducesTo_S128x64_S_d0_1 h_S_) main_v76 main_c_29
  let main_v78 : IVec S_ 1 := andi main_v73 main_v77
  let main_v79 : FVec F S64 .f32 := Host.absf main_arg19
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  main_v83

def fn_part3 {F : FTy → Type} [FloatOps F] (main_arg14 : FVec F S192x192 .f32) (main_arg15 : FVec F S192 .f32) (main_arg16 : FVec F S128x128 .f32) (main_arg17 : FVec F S128 .f32) (main_arg18 : FVec F S128x64 .f32) (main_arg19 : FVec F S64 .f32) (main_v48 : IVec S_ 1) (main_v49 : FVec F S192 .f32) (main_v50 : FVec F S192 .f32) : IVec S_ 1 :=
  let main_v51 : IVec S192 1 := cmpf .olt main_v49 main_v50
  let main_c_19 : IVec S_ 1 := constantI S_ 1 1#1
  let main_v52 : IVec S_ 1 := (fun x v => Host.reduce IntOp.andi x v reducesTo_S192_S_d0 h_S_) main_v51 main_c_19
  let main_v53 : IVec S_ 1 := andi main_v48 main_v52
  let main_v54 : FVec F S192x192 .f32 := Host.absf main_arg14
  let main_cst_20 : FVec F S_ .f32 := constant S_ .f32 0x7F800000#32
  let main_v55 : FVec F S192x192 .f32 := broadcastInDim S192x192 ![] bcast_S_S192x192 main_cst_20
  let main_v56 : IVec S192x192 1 := cmpf .olt main_v54 main_v55
  let main_c_21 : IVec S_ 1 := constantI S_ 1 1#1
  let main_v57 : IVec S_ 1 := (fun x v => Host.reduce IntOp.andi x v reducesTo_S192x192_S_d0_1 h_S_) main_v56 main_c_21
  let main_v58 : IVec S_ 1 := andi main_v53 main_v57
  let main_v59 : FVec F S192 .f32 := Host.absf main_arg15
  let main_cst_22 : FVec F S_ .f32 := constant S_ .f32 0x7F800000#32
  let main_v60 : FVec F S192 .f32 := broadcastInDim S192 ![] bcast_S_S192 main_cst_22
  let main_v61 : IVec S192 1 := cmpf .olt main_v59 main_v60
  let main_c_23 : IVec S_ 1 := constantI S_ 1 1#1
  let main_v62 : IVec S_ 1 := (fun x v => Host.reduce IntOp.andi x v reducesTo_S192_S_d0 h_S_) main_v61 main_c_23
  let main_v63 : IVec S_ 1 := andi main_v58 main_v62
  let main_v64 : FVec F S128x128 .f32 := Host.absf main_arg16
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg17 main_arg18 main_arg19 main_v63 main_v67

def fn_part2 {F : FTy → Type} [FloatOps F] (main_arg10 : FVec F S128x128 .f32) (main_arg11 : FVec F S128 .f32) (main_arg12 : FVec F S192x192 .f32) (main_arg13 : FVec F S192 .f32) (main_arg14 : FVec F S192x192 .f32) (main_arg15 : FVec F S192 .f32) (main_arg16 : FVec F S128x128 .f32) (main_arg17 : FVec F S128 .f32) (main_arg18 : FVec F S128x64 .f32) (main_arg19 : FVec F S64 .f32) (main_v33 : IVec S_ 1) : IVec S_ 1 :=
  let main_v34 : FVec F S128x128 .f32 := Host.absf main_arg10
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg11
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S192x192 .f32 := Host.absf main_arg12
  let main_cst_16 : FVec F S_ .f32 := constant S_ .f32 0x7F800000#32
  let main_v45 : FVec F S192x192 .f32 := broadcastInDim S192x192 ![] bcast_S_S192x192 main_cst_16
  let main_v46 : IVec S192x192 1 := cmpf .olt main_v44 main_v45
  let main_c_17 : IVec S_ 1 := constantI S_ 1 1#1
  let main_v47 : IVec S_ 1 := (fun x v => Host.reduce IntOp.andi x v reducesTo_S192x192_S_d0_1 h_S_) main_v46 main_c_17
  let main_v48 : IVec S_ 1 := andi main_v43 main_v47
  let main_v49 : FVec F S192 .f32 := Host.absf main_arg13
  let main_cst_18 : FVec F S_ .f32 := constant S_ .f32 0x7F800000#32
  let main_v50 : FVec F S192 .f32 := broadcastInDim S192 ![] bcast_S_S192 main_cst_18
  fn_part3 (F := F) main_arg14 main_arg15 main_arg16 main_arg17 main_arg18 main_arg19 main_v48 main_v49 main_v50

def fn_part1 {F : FTy → Type} [FloatOps F] (main_arg7 : FVec F S64 .f32) (main_arg8 : FVec F S128x128 .f32) (main_arg9 : FVec F S128 .f32) (main_arg10 : FVec F S128x128 .f32) (main_arg11 : FVec F S128 .f32) (main_arg12 : FVec F S192x192 .f32) (main_arg13 : FVec F S192 .f32) (main_arg14 : FVec F S192x192 .f32) (main_arg15 : FVec F S192 .f32) (main_arg16 : FVec F S128x128 .f32) (main_arg17 : FVec F S128 .f32) (main_arg18 : FVec F S128x64 .f32) (main_arg19 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg7
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x128 .f32 := Host.absf main_arg8
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg10 main_arg11 main_arg12 main_arg13 main_arg14 main_arg15 main_arg16 main_arg17 main_arg18 main_arg19 main_v33

def fn {F : FTy → Type} [FloatOps F] (main_arg0 : FVec F S200000x64 .f32) (main_arg1 : IVec S250000 32) (main_arg2 : IVec S500000 32) (main_arg3 : IVec S750000 32) (main_arg4 : FVec F S64x64 .f32) (main_arg5 : FVec F S64 .f32) (main_arg6 : FVec F S64x64 .f32) (main_arg7 : FVec F S64 .f32) (main_arg8 : FVec F S128x128 .f32) (main_arg9 : FVec F S128 .f32) (main_arg10 : FVec F S128x128 .f32) (main_arg11 : FVec F S128 .f32) (main_arg12 : FVec F S192x192 .f32) (main_arg13 : FVec F S192 .f32) (main_arg14 : FVec F S192x192 .f32) (main_arg15 : FVec F S192 .f32) (main_arg16 : FVec F S128x128 .f32) (main_arg17 : FVec F S128 .f32) (main_arg18 : FVec F S128x64 .f32) (main_arg19 : FVec F S64 .f32) : IVec S_ 1 :=
  let main_v0 : FVec F S200000x64 .f32 := Host.absf main_arg0
  let main_cst : FVec F S_ .f32 := constant S_ .f32 0x7F800000#32
  let main_v1 : FVec F S200000x64 .f32 := broadcastInDim S200000x64 ![] bcast_S_S200000x64 main_cst
  let main_v2 : IVec S200000x64 1 := cmpf .olt main_v0 main_v1
  let main_c : IVec S_ 1 := constantI S_ 1 1#1
  let main_v3 : IVec S_ 1 := (fun x v => Host.reduce IntOp.andi x v reducesTo_S200000x64_S_d0_1 h_S_) main_v2 main_c
  let main_v4 : FVec F S64x64 .f32 := Host.absf main_arg4
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg5
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg6
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg7 main_arg8 main_arg9 main_arg10 main_arg11 main_arg12 main_arg13 main_arg14 main_arg15 main_arg16 main_arg17 main_arg18 main_arg19 main_v13 main_v16
-- ==== Kernel.lean ====
abbrev S200000x64 : Shape := ⟨2, ![200000, 64]⟩
abbrev S250000 : Shape := ⟨1, ![250000]⟩
abbrev S500000 : Shape := ⟨1, ![500000]⟩
abbrev S750000 : Shape := ⟨1, ![750000]⟩
abbrev S64x64 : Shape := ⟨2, ![64, 64]⟩
abbrev S64 : Shape := ⟨1, ![64]⟩
abbrev S128x128 : Shape := ⟨2, ![128, 128]⟩
abbrev S128 : Shape := ⟨1, ![128]⟩
abbrev S192x192 : Shape := ⟨2, ![192, 192]⟩
abbrev S192 : Shape := ⟨1, ![192]⟩
abbrev S128x64 : Shape := ⟨2, ![128, 64]⟩
abbrev S_ : Shape := ⟨0, ![]⟩
abbrev S250000x1 : Shape := ⟨2, ![250000, 1]⟩
abbrev S250000x64 : Shape := ⟨2, ![250000, 64]⟩
abbrev S1x64 : Shape := ⟨2, ![1, 64]⟩
abbrev S2000x64 : Shape := ⟨2, ![2000, 64]⟩
abbrev S500000x1 : Shape := ⟨2, ![500000, 1]⟩
abbrev S500000x64 : Shape := ⟨2, ![500000, 64]⟩
abbrev S250000x128 : Shape := ⟨2, ![250000, 128]⟩
abbrev S1x128 : Shape := ⟨2, ![1, 128]⟩
abbrev S2000x128 : Shape := ⟨2, ![2000, 128]⟩
abbrev S750000x1 : Shape := ⟨2, ![750000, 1]⟩
abbrev S750000x64 : Shape := ⟨2, ![750000, 64]⟩
abbrev S250000x192 : Shape := ⟨2, ![250000, 192]⟩
abbrev S1x192 : Shape := ⟨2, ![1, 192]⟩
abbrev S2000x192 : Shape := ⟨2, ![2000, 192]⟩
abbrev S64x128 : Shape := ⟨2, ![64, 128]⟩
abbrev S8000x64 : Shape := ⟨2, ![8000, 64]⟩
abbrev S8000x128 : Shape := ⟨2, ![8000, 128]⟩

abbrev nBuf : Space → Nat
  | .hbm => 98
  | .vmem => 35
  | .smem => 0
  | _ => 0

abbrev bufTy : (tb : Table) → Fin (tcTables nBuf tb) → BufTy
  | .hbm, ⟨0, _⟩ => ⟨S200000x64, .f32⟩
  | .hbm, ⟨1, _⟩ => ⟨S250000, .i32⟩
  | .hbm, ⟨2, _⟩ => ⟨S500000, .i32⟩
  | .hbm, ⟨3, _⟩ => ⟨S750000, .i32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S192x192, .f32⟩
  | .hbm, ⟨13, _⟩ => ⟨S192, .f32⟩
  | .hbm, ⟨14, _⟩ => ⟨S192x192, .f32⟩
  | .hbm, ⟨15, _⟩ => ⟨S192, .f32⟩
  | .hbm, ⟨16, _⟩ => ⟨S128x128, .f32⟩
  | .hbm, ⟨17, _⟩ => ⟨S128, .f32⟩
  | .hbm, ⟨18, _⟩ => ⟨S128x64, .f32⟩
  | .hbm, ⟨19, _⟩ => ⟨S64, .f32⟩
  | .hbm, ⟨20, _⟩ => ⟨S200000x64, .bf16⟩
  | .hbm, ⟨21, _⟩ => ⟨S_, .f32⟩
  | .hbm, ⟨22, _⟩ => ⟨S200000x64, .f32⟩
  | .hbm, ⟨23, _⟩ => ⟨S_, .i32⟩
  | .hbm, ⟨24, _⟩ => ⟨S250000, .i32⟩
  | .hbm, ⟨25, _⟩ => ⟨S250000, .i1⟩
  | .hbm, ⟨26, _⟩ => ⟨S_, .i32⟩
  | .hbm, ⟨27, _⟩ => ⟨S250000, .i32⟩
  | .hbm, ⟨28, _⟩ => ⟨S250000, .i32⟩
  | .hbm, ⟨29, _⟩ => ⟨S250000, .i32⟩
  | .hbm, ⟨30, _⟩ => ⟨S250000x1, .i32⟩
  | .hbm, ⟨31, _⟩ => ⟨S250000x64, .bf16⟩
  | .hbm, ⟨32, _⟩ => ⟨S1x64, .f32⟩
  | .hbm, ⟨33, _⟩ => ⟨S1x64, .f32⟩
  | .hbm, ⟨34, _⟩ => ⟨S250000x64, .bf16⟩
  | .hbm, ⟨35, _⟩ => ⟨S_, .i32⟩
  | .hbm, ⟨36, _⟩ => ⟨S250000, .i32⟩
  | .hbm, ⟨37, _⟩ => ⟨S250000, .i1⟩
  | .hbm, ⟨38, _⟩ => ⟨S_, .i32⟩
  | .hbm, ⟨39, _⟩ => ⟨S250000, .i32⟩
  | .hbm, ⟨40, _⟩ => ⟨S250000, .i32⟩
  | .hbm, ⟨41, _⟩ => ⟨S250000, .i32⟩
  | .hbm, ⟨42, _⟩ => ⟨S250000x1, .i32⟩
  | .hbm, ⟨43, _⟩ => ⟨S250000x64, .f32⟩
  | .hbm, ⟨44, _⟩ => ⟨S200000x64, .f32⟩
  | .hbm, ⟨45, _⟩ => ⟨S_, .i32⟩
  | .hbm, ⟨46, _⟩ => ⟨S500000, .i32⟩
  | .hbm, ⟨47, _⟩ => ⟨S500000, .i1⟩
  | .hbm, ⟨48, _⟩ => ⟨S_, .i32⟩
  | .hbm, ⟨49, _⟩ => ⟨S500000, .i32⟩
  | .hbm, ⟨50, _⟩ => ⟨S500000, .i32⟩
  | .hbm, ⟨51, _⟩ => ⟨S500000, .i32⟩
  | .hbm, ⟨52, _⟩ => ⟨S500000x1, .i32⟩
  | .hbm, ⟨53, _⟩ => ⟨S500000x64, .bf16⟩
  | .hbm, ⟨54, _⟩ => ⟨S250000x128, .bf16⟩
  | .hbm, ⟨55, _⟩ => ⟨S1x128, .f32⟩
  | .hbm, ⟨56, _⟩ => ⟨S1x128, .f32⟩
  | .hbm, ⟨57, _⟩ => ⟨S250000x128, .bf16⟩
  | .hbm, ⟨58, _⟩ => ⟨S500000x64, .bf16⟩
  | .hbm, ⟨59, _⟩ => ⟨S_, .i32⟩
  | .hbm, ⟨60, _⟩ => ⟨S500000, .i32⟩
  | .hbm, ⟨61, _⟩ => ⟨S500000, .i1⟩
  | .hbm, ⟨62, _⟩ => ⟨S_, .i32⟩
  | .hbm, ⟨63, _⟩ => ⟨S500000, .i32⟩
  | .hbm, ⟨64, _⟩ => ⟨S500000, .i32⟩
  | .hbm, ⟨65, _⟩ => ⟨S500000, .i32⟩
  | .hbm, ⟨66, _⟩ => ⟨S500000x1, .i32⟩
  | .hbm, ⟨67, _⟩ => ⟨S500000x64, .f32⟩
  | .hbm, ⟨68, _⟩ => ⟨S200000x64, .f32⟩
  | .hbm, ⟨69, _⟩ => ⟨S_, .i32⟩
  | .hbm, ⟨70, _⟩ => ⟨S750000, .i32⟩
  | .hbm, ⟨71, _⟩ => ⟨S750000, .i1⟩
  | .hbm, ⟨72, _⟩ => ⟨S_, .i32⟩
  | .hbm, ⟨73, _⟩ => ⟨S750000, .i32⟩
  | .hbm, ⟨74, _⟩ => ⟨S750000, .i32⟩
  | .hbm, ⟨75, _⟩ => ⟨S750000, .i32⟩
  | .hbm, ⟨76, _⟩ => ⟨S750000x1, .i32⟩
  | .hbm, ⟨77, _⟩ => ⟨S750000x64, .bf16⟩
  | .hbm, ⟨78, _⟩ => ⟨S250000x192, .bf16⟩
  | .hbm, ⟨79, _⟩ => ⟨S1x192, .f32⟩
  | .hbm, ⟨80, _⟩ => ⟨S1x192, .f32⟩
  | .hbm, ⟨81, _⟩ => ⟨S250000x192, .bf16⟩
  | .hbm, ⟨82, _⟩ => ⟨S750000x64, .bf16⟩
  | .hbm, ⟨83, _⟩ => ⟨S_, .i32⟩
  | .hbm, ⟨84, _⟩ => ⟨S750000, .i32⟩
  | .hbm, ⟨85, _⟩ => ⟨S750000, .i1⟩
  | .hbm, ⟨86, _⟩ => ⟨S_, .i32⟩
  | .hbm, ⟨87, _⟩ => ⟨S750000, .i32⟩
  | .hbm, ⟨88, _⟩ => ⟨S750000, .i32⟩
  | .hbm, ⟨89, _⟩ => ⟨S750000, .i32⟩
  | .hbm, ⟨90, _⟩ => ⟨S750000x1, .i32⟩
  | .hbm, ⟨91, _⟩ => ⟨S750000x64, .f32⟩
  | .hbm, ⟨92, _⟩ => ⟨S200000x64, .f32⟩
  | .hbm, ⟨93, _⟩ => ⟨S64x128, .f32⟩
  | .hbm, ⟨94, _⟩ => ⟨S64x128, .f32⟩
  | .hbm, ⟨95, _⟩ => ⟨S1x128, .f32⟩
  | .hbm, ⟨96, _⟩ => ⟨S1x64, .f32⟩
  | .hbm, ⟨97, _⟩ => ⟨S200000x64, .f32⟩
  | .local _ .vmem, ⟨0, _⟩ => ⟨S2000x64, .bf16⟩
  | .local _ .vmem, ⟨1, _⟩ => ⟨S2000x64, .bf16⟩
  | .local _ .vmem, ⟨2, _⟩ => ⟨S64x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S2000x64, .bf16⟩
  | .local _ .vmem, ⟨7, _⟩ => ⟨S2000x64, .bf16⟩
  | .local _ .vmem, ⟨8, _⟩ => ⟨S2000x128, .bf16⟩
  | .local _ .vmem, ⟨9, _⟩ => ⟨S2000x128, .bf16⟩
  | .local _ .vmem, ⟨10, _⟩ => ⟨S128x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S2000x128, .bf16⟩
  | .local _ .vmem, ⟨15, _⟩ => ⟨S2000x128, .bf16⟩
  | .local _ .vmem, ⟨16, _⟩ => ⟨S2000x192, .bf16⟩
  | .local _ .vmem, ⟨17, _⟩ => ⟨S2000x192, .bf16⟩
  | .local _ .vmem, ⟨18, _⟩ => ⟨S192x192, .f32⟩
  | .local _ .vmem, ⟨19, _⟩ => ⟨S1x192, .f32⟩
  | .local _ .vmem, ⟨20, _⟩ => ⟨S192x192, .f32⟩
  | .local _ .vmem, ⟨21, _⟩ => ⟨S1x192, .f32⟩
  | .local _ .vmem, ⟨22, _⟩ => ⟨S2000x192, .bf16⟩
  | .local _ .vmem, ⟨23, _⟩ => ⟨S2000x192, .bf16⟩
  | .local _ .vmem, ⟨24, _⟩ => ⟨S8000x64, .f32⟩
  | .local _ .vmem, ⟨25, _⟩ => ⟨S8000x64, .f32⟩
  | .local _ .vmem, ⟨26, _⟩ => ⟨S8000x64, .bf16⟩
  | .local _ .vmem, ⟨27, _⟩ => ⟨S8000x64, .bf16⟩
  | .local _ .vmem, ⟨28, _⟩ => ⟨S64x128, .f32⟩
  | .local _ .vmem, ⟨29, _⟩ => ⟨S64x128, .f32⟩
  | .local _ .vmem, ⟨30, _⟩ => ⟨S1x128, .f32⟩
  | .local _ .vmem, ⟨31, _⟩ => ⟨S128x64, .f32⟩
  | .local _ .vmem, ⟨32, _⟩ => ⟨S1x64, .f32⟩
  | .local _ .vmem, ⟨33, _⟩ => ⟨S8000x64, .f32⟩
  | .local _ .vmem, ⟨34, _⟩ => ⟨S8000x64, .f32⟩
  | _, _ => ⟨S200000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_cst : Ref sig .tc := ⟨.hbm, 21, rfl⟩
abbrev main_v1 : Ref sig .tc := ⟨.hbm, 22, rfl⟩
abbrev main_c : Ref sig .tc := ⟨.hbm, 23, rfl⟩
abbrev main_v2 : Ref sig .tc := ⟨.hbm, 24, rfl⟩
abbrev main_v3 : Ref sig .tc := ⟨.hbm, 25, rfl⟩
abbrev main_c_0 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_c_1 : Ref sig .tc := ⟨.hbm, 35, rfl⟩
abbrev main_v12 : Ref sig .tc := ⟨.hbm, 36, rfl⟩
abbrev main_v13 : Ref sig .tc := ⟨.hbm, 37, rfl⟩
abbrev main_c_2 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_c_3 : Ref sig .tc := ⟨.hbm, 45, rfl⟩
abbrev main_v20 : Ref sig .tc := ⟨.hbm, 46, rfl⟩
abbrev main_v21 : Ref sig .tc := ⟨.hbm, 47, rfl⟩
abbrev main_c_4 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_c_5 : Ref sig .tc := ⟨.hbm, 59, rfl⟩
abbrev main_v32 : Ref sig .tc := ⟨.hbm, 60, rfl⟩
abbrev main_v33 : Ref sig .tc := ⟨.hbm, 61, rfl⟩
abbrev main_c_6 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_c_7 : Ref sig .tc := ⟨.hbm, 69, rfl⟩
abbrev main_v40 : Ref sig .tc := ⟨.hbm, 70, rfl⟩
abbrev main_v41 : Ref sig .tc := ⟨.hbm, 71, rfl⟩
abbrev main_c_8 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_c_9 : Ref sig .tc := ⟨.hbm, 83, rfl⟩
abbrev main_v52 : Ref sig .tc := ⟨.hbm, 84, rfl⟩
abbrev main_v53 : Ref sig .tc := ⟨.hbm, 85, rfl⟩
abbrev main_c_10 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg6_0 : Ref sig .tc := ⟨.vmem, 32, rfl⟩
abbrev cc3_stg7_0 : Ref sig .tc := ⟨.vmem, 33, rfl⟩
abbrev cc3_stg7_1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem5_0 : DmaSem sig := 31
abbrev cc3_sem6_0 : DmaSem sig := 32
abbrev cc3_sem7_0 : DmaSem sig := 33
abbrev cc3_sem7_1 : DmaSem sig := 34

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![125], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x192 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S192x192 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x192 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S192x192 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x192 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x192 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8000x64 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S8000x64 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  bitsLt_bf16_f32 : FTy.bits .bf16 < FTy.bits .f32
  bcast_S_S200000x64 : S_.BroadcastsInDim S200000x64 (![] : Fin 0 → Fin S200000x64.rank)
  bcast_S_S250000 : S_.BroadcastsInDim S250000 (![] : Fin 0 → Fin S250000.rank)
  bcast_S250000_S250000x1_0 : S250000.BroadcastsInDim S250000x1 (![0] : Fin 1 → Fin S250000x1.rank)
  shapeCasts_S64_S1x64 : S64.ShapeCasts S1x64
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  packedbf16_S2000x64_S2000x64_0_0 : (Rect.unit (s := S2000x64) ![0, 0] S2000x64.size inb_S2000x64_S2000x64_0_0).PackedRows (EltTy.packing .bf16)
  bcast_S_S500000 : S_.BroadcastsInDim S500000 (![] : Fin 0 → Fin S500000.rank)
  bcast_S500000_S500000x1_0 : S500000.BroadcastsInDim S500000x1 (![0] : Fin 1 → Fin S500000x1.rank)
  shapeCasts_S500000x64_S250000x128 : S500000x64.ShapeCasts S250000x128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  packedbf16_S2000x128_S2000x128_0_0 : (Rect.unit (s := S2000x128) ![0, 0] S2000x128.size inb_S2000x128_S2000x128_0_0).PackedRows (EltTy.packing .bf16)
  shapeCasts_S250000x128_S500000x64 : S250000x128.ShapeCasts S500000x64
  bcast_S_S750000 : S_.BroadcastsInDim S750000 (![] : Fin 0 → Fin S750000.rank)
  bcast_S750000_S750000x1_0 : S750000.BroadcastsInDim S750000x1 (![0] : Fin 1 → Fin S750000x1.rank)
  shapeCasts_S750000x64_S250000x192 : S750000x64.ShapeCasts S250000x192
  shapeCasts_S192_S1x192 : S192.ShapeCasts S1x192
  inb_S2000x192_S2000x192_0_0 : ∀ a, (![0, 0] : Fin 2 → Nat) a + S2000x192.size a ≤ S2000x192.size a
  h_S2000x192 : 0 < S2000x192.numel
  shapeCasts_S2000x192_S2000x192 : S2000x192.ShapeCasts S2000x192
  inb_S192x192_S192x192_0_0 : ∀ a, (![0, 0] : Fin 2 → Nat) a + S192x192.size a ≤ S192x192.size a
  h_S192x192 : 0 < S192x192.numel
  inb_S1x192_S1x192_0_0 : ∀ a, (![0, 0] : Fin 2 → Nat) a + S1x192.size a ≤ S1x192.size a
  h_S1x192 : 0 < S1x192.numel
  shapeCasts_S1x192_S1x192 : S1x192.ShapeCasts S1x192
  broadcasts_S1x192_S2000x192 : S1x192.Broadcasts S2000x192
  packedbf16_S2000x192_S2000x192_0_0 : (Rect.unit (s := S2000x192) ![0, 0] S2000x192.size inb_S2000x192_S2000x192_0_0).PackedRows (EltTy.packing .bf16)
  shapeCasts_S250000x192_S750000x64 : S250000x192.ShapeCasts S750000x64
  slices_S128x128_S64x128_0_0 : S128x128.Slices ![0, 0] S64x128
  slices_S128x128_S64x128_64_0 : S128x128.Slices ![64, 0] S64x128
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  broadcasts_S1x128_S8000x128 : S1x128.Broadcasts S8000x128
  inb_S128x64_S128x64_0_0 : ∀ a, (![0, 0] : Fin 2 → Nat) a + S128x64.size a ≤ S128x64.size a
  h_S128x64 : 0 < S128x64.numel
  broadcasts_S1x64_S8000x64 : S1x64.Broadcasts S8000x64
  gather_S200000x64_S250000x1_S250000x64_1_0_n_n_0_1_164_wf : GatherDims.WF S200000x64 S250000x1 S250000x64 [1] [0] [] [0] [] 1 ![1, 64]
  dot_S2000x64_S64x64_S2000x64_1_0_0_1_n_n_wf : DotDims.WF S2000x64 S64x64 S2000x64 [1] [0] [0] [1] [] []
  scatter_S200000x64_S250000x1_S250000x64_1_0_0_1_wf : ScatterDims.WF S200000x64 S250000x1 S250000x64 [1] [0] [0] 1
  gather_S200000x64_S500000x1_S500000x64_1_0_n_n_0_1_164_wf : GatherDims.WF S200000x64 S500000x1 S500000x64 [1] [0] [] [0] [] 1 ![1, 64]
  dot_S2000x128_S128x128_S2000x128_1_0_0_1_n_n_wf : DotDims.WF S2000x128 S128x128 S2000x128 [1] [0] [0] [1] [] []
  scatter_S200000x64_S500000x1_S500000x64_1_0_0_1_wf : ScatterDims.WF S200000x64 S500000x1 S500000x64 [1] [0] [0] 1
  gather_S200000x64_S750000x1_S750000x64_1_0_n_n_0_1_164_wf : GatherDims.WF S200000x64 S750000x1 S750000x64 [1] [0] [] [0] [] 1 ![1, 64]
  dot_S2000x192_S192x192_S2000x192_1_0_0_1_n_n_wf : DotDims.WF S2000x192 S192x192 S2000x192 [1] [0] [0] [1] [] []
  scatter_S200000x64_S750000x1_S750000x64_1_0_0_1_wf : ScatterDims.WF S200000x64 S750000x1 S750000x64 [1] [0] [0] 1
  dot_S8000x64_S64x128_S8000x128_1_0_0_1_n_n_wf : DotDims.WF S8000x64 S64x128 S8000x128 [1] [0] [0] [1] [] []
  dot_S8000x128_S128x64_S8000x64_1_0_0_1_n_n_wf : DotDims.WF S8000x128 S128x64 S8000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S250000x64.size a
  hwx0_0 : ∀ i : grid0.Coords, EltTy.bits .bf16 = 32 ∨ (Rect.block (s := S250000x64) S2000x64.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x64.size a ≤ S250000x64.size a
  hwx0_5 : ∀ i : grid0.Coords, EltTy.bits .bf16 = 32 ∨ (Rect.block (s := S250000x64) S2000x64.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S250000x128.size a
  hwx1_0 : ∀ i : grid1.Coords, EltTy.bits .bf16 = 32 ∨ (Rect.block (s := S250000x128) S2000x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S250000x128.size a
  hwx1_5 : ∀ i : grid1.Coords, EltTy.bits .bf16 = 32 ∨ (Rect.block (s := S250000x128) S2000x128.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x192.size a ≤ S250000x192.size a
  hwx2_0 : ∀ i : grid2.Coords, EltTy.bits .bf16 = 32 ∨ (Rect.block (s := S250000x192) S2000x192.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S192x192.size a ≤ S192x192.size a
  hwx2_1 : ∀ i : grid2.Coords, EltTy.bits .f32 = 32 ∨ (Rect.block (s := S192x192) S192x192.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x192.size a ≤ S1x192.size a
  hwx2_2 : ∀ i : grid2.Coords, EltTy.bits .f32 = 32 ∨ (Rect.block (s := S1x192) S1x192.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S192x192.size a ≤ S192x192.size a
  hwx2_3 : ∀ i : grid2.Coords, EltTy.bits .f32 = 32 ∨ (Rect.block (s := S192x192) S192x192.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x192.size a ≤ S1x192.size a
  hwx2_4 : ∀ i : grid2.Coords, EltTy.bits .f32 = 32 ∨ (Rect.block (s := S1x192) S1x192.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x192.size a ≤ S250000x192.size a
  hwx2_5 : ∀ i : grid2.Coords, EltTy.bits .bf16 = 32 ∨ (Rect.block (s := S250000x192) S2000x192.size (cc2_transform_5 i) (hinb2_5 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x64.size a ≤ S200000x64.size a
  hwx3_0 : ∀ i : grid3.Coords, EltTy.bits .f32 = 32 ∨ (Rect.block (s := S200000x64) S8000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8000x64.size a ≤ S200000x64.size a
  hwx3_1 : ∀ i : grid3.Coords, EltTy.bits .bf16 = 32 ∨ (Rect.block (s := S200000x64) S8000x64.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x128.size a ≤ S64x128.size a
  hwx3_2 : ∀ i : grid3.Coords, EltTy.bits .f32 = 32 ∨ (Rect.block (s := S64x128) S64x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x128.size a ≤ S64x128.size a
  hwx3_3 : ∀ i : grid3.Coords, EltTy.bits .f32 = 32 ∨ (Rect.block (s := S64x128) S64x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x64.size a ≤ S128x64.size a
  hwx3_5 : ∀ i : grid3.Coords, EltTy.bits .f32 = 32 ∨ (Rect.block (s := S128x64) S128x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S8000x64.size a ≤ S200000x64.size a
  hwx3_7 : ∀ i : grid3.Coords, EltTy.bits .f32 = 32 ∨ (Rect.block (s := S200000x64) S8000x64.size (cc3_transform_7 i) (hinb3_7 i)).WholeWords (EltTy.packing .f32)

variable [Facts₀]

def gather_S200000x64_S250000x1_S250000x64_1_0_n_n_0_1_164 : GatherDims S200000x64 S250000x1 S250000x64 where
  offsetDims := [1]
  collapsedSliceDims := [0]
  operandBatchingDims := []
  startIndicesBatchingDims := []
  startIndexMap := [0]
  indexVectorDim := 1
  sliceSizes := ![1, 64]
  wf := gather_S200000x64_S250000x1_S250000x64_1_0_n_n_0_1_164_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def scatter_S200000x64_S250000x1_S250000x64_1_0_0_1 : ScatterDims S200000x64 S250000x1 S250000x64 where
  updateWindowDims := [1]
  insertedWindowDims := [0]
  scatterDimsToOperandDims := [0]
  indexVectorDim := 1
  wf := scatter_S200000x64_S250000x1_S250000x64_1_0_0_1_wf
def gather_S200000x64_S500000x1_S500000x64_1_0_n_n_0_1_164 : GatherDims S200000x64 S500000x1 S500000x64 where
  offsetDims := [1]
  collapsedSliceDims := [0]
  operandBatchingDims := []
  startIndicesBatchingDims := []
  startIndexMap := [0]
  indexVectorDim := 1
  sliceSizes := ![1, 64]
  wf := gather_S200000x64_S500000x1_S500000x64_1_0_n_n_0_1_164_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S200000x64_S500000x1_S500000x64_1_0_0_1 : ScatterDims S200000x64 S500000x1 S500000x64 where
  updateWindowDims := [1]
  insertedWindowDims := [0]
  scatterDimsToOperandDims := [0]
  indexVectorDim := 1
  wf := scatter_S200000x64_S500000x1_S500000x64_1_0_0_1_wf
def gather_S200000x64_S750000x1_S750000x64_1_0_n_n_0_1_164 : GatherDims S200000x64 S750000x1 S750000x64 where
  offsetDims := [1]
  collapsedSliceDims := [0]
  operandBatchingDims := []
  startIndicesBatchingDims := []
  startIndexMap := [0]
  indexVectorDim := 1
  sliceSizes := ![1, 64]
  wf := gather_S200000x64_S750000x1_S750000x64_1_0_n_n_0_1_164_wf
def dot_S2000x192_S192x192_S2000x192_1_0_0_1_n_n : DotDims S2000x192 S192x192 S2000x192 where
  lhsContracting := [1]
  rhsContracting := [0]
  lhsNonContracting := [0]
  rhsNonContracting := [1]
  lhsBatch := []
  rhsBatch := []
  wf := dot_S2000x192_S192x192_S2000x192_1_0_0_1_n_n_wf
def scatter_S200000x64_S750000x1_S750000x64_1_0_0_1 : ScatterDims S200000x64 S750000x1 S750000x64 where
  updateWindowDims := [1]
  insertedWindowDims := [0]
  scatterDimsToOperandDims := [0]
  indexVectorDim := 1
  wf := scatter_S200000x64_S750000x1_S750000x64_1_0_0_1_wf
def dot_S8000x64_S64x128_S8000x128_1_0_0_1_n_n : DotDims S8000x64 S64x128 S8000x128 where
  lhsContracting := [1]
  rhsContracting := [0]
  lhsNonContracting := [0]
  rhsNonContracting := [1]
  lhsBatch := []
  rhsBatch := []
  wf := dot_S8000x64_S64x128_S8000x128_1_0_0_1_n_n_wf
def dot_S8000x128_S128x64_S8000x64_1_0_0_1_n_n : DotDims S8000x128 S128x64 S8000x64 where
  lhsContracting := [1]
  rhsContracting := [0]
  lhsNonContracting := [0]
  rhsNonContracting := [1]
  lhsBatch := []
  rhsBatch := []
  wf := dot_S8000x128_S128x64_S8000x64_1_0_0_1_n_n_wf

abbrev win0_0 : Pipeline.Window sig grid0 :=
  Pipeline.Window.ofSpec (Memref.whole main_v8) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S2000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v27) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v30) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v47) S2000x192.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg12) S192x192.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S1x192.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg14) S192x192.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v49) S1x192.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v50) S2000x192.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v59) S8000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v0) S8000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v60) S64x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v61) S64x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v62) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg18) S128x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v63) S1x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v64) S8000x64.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S200000x64 : Shape := ⟨2, ![200000, 64]⟩
abbrev S250000 : Shape := ⟨1, ![250000]⟩
abbrev S500000 : Shape := ⟨1, ![500000]⟩
abbrev S750000 : Shape := ⟨1, ![750000]⟩
abbrev S64x64 : Shape := ⟨2, ![64, 64]⟩
abbrev S64 : Shape := ⟨1, ![64]⟩
abbrev S128x128 : Shape := ⟨2, ![128, 128]⟩
abbrev S128 : Shape := ⟨1, ![128]⟩
abbrev S192x192 : Shape := ⟨2, ![192, 192]⟩
abbrev S192 : Shape := ⟨1, ![192]⟩
abbrev S128x64 : Shape := ⟨2, ![128, 64]⟩
abbrev S_ : Shape := ⟨0, ![]⟩
abbrev S250000x1 : Shape := ⟨2, ![250000, 1]⟩
abbrev S250000x64 : Shape := ⟨2, ![250000, 64]⟩
abbrev S1x64 : Shape := ⟨2, ![1, 64]⟩
abbrev S500000x1 : Shape := ⟨2, ![500000, 1]⟩
abbrev S500000x64 : Shape := ⟨2, ![500000, 64]⟩
abbrev S250000x128 : Shape := ⟨2, ![250000, 128]⟩
abbrev S1x128 : Shape := ⟨2, ![1, 128]⟩
abbrev S750000x1 : Shape := ⟨2, ![750000, 1]⟩
abbrev S750000x64 : Shape := ⟨2, ![750000, 64]⟩
abbrev S250000x192 : Shape := ⟨2, ![250000, 192]⟩
abbrev S1x192 : Shape := ⟨2, ![1, 192]⟩
abbrev S200000x128 : Shape := ⟨2, ![200000, 128]⟩

abbrev nBuf : Space → Nat
  | .hbm => 125
  | .vmem => 0
  | .smem => 0
  | _ => 0

abbrev bufTy : (tb : Table) → Fin (tcTables nBuf tb) → BufTy
  | .hbm, ⟨0, _⟩ => ⟨S200000x64, .f32⟩
  | .hbm, ⟨1, _⟩ => ⟨S250000, .i32⟩
  | .hbm, ⟨2, _⟩ => ⟨S500000, .i32⟩
  | .hbm, ⟨3, _⟩ => ⟨S750000, .i32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S192x192, .f32⟩
  | .hbm, ⟨13, _⟩ => ⟨S192, .f32⟩
  | .hbm, ⟨14, _⟩ => ⟨S192x192, .f32⟩
  | .hbm, ⟨15, _⟩ => ⟨S192, .f32⟩
  | .hbm, ⟨16, _⟩ => ⟨S128x128, .f32⟩
  | .hbm, ⟨17, _⟩ => ⟨S128, .f32⟩
  | .hbm, ⟨18, _⟩ => ⟨S128x64, .f32⟩
  | .hbm, ⟨19, _⟩ => ⟨S64, .f32⟩
  | .hbm, ⟨20, _⟩ => ⟨S_, .f32⟩
  | .hbm, ⟨21, _⟩ => ⟨S200000x64, .f32⟩
  | .hbm, ⟨22, _⟩ => ⟨S_, .i32⟩
  | .hbm, ⟨23, _⟩ => ⟨S250000, .i32⟩
  | .hbm, ⟨24, _⟩ => ⟨S250000, .i1⟩
  | .hbm, ⟨25, _⟩ => ⟨S_, .i32⟩
  | .hbm, ⟨26, _⟩ => ⟨S250000, .i32⟩
  | .hbm, ⟨27, _⟩ => ⟨S250000, .i32⟩
  | .hbm, ⟨28, _⟩ => ⟨S250000, .i32⟩
  | .hbm, ⟨29, _⟩ => ⟨S250000x1, .i32⟩
  | .hbm, ⟨30, _⟩ => ⟨S250000x64, .f32⟩
  | .hbm, ⟨31, _⟩ => ⟨S250000x64, .f32⟩
  | .hbm, ⟨32, _⟩ => ⟨S1x64, .f32⟩
  | .hbm, ⟨33, _⟩ => ⟨S250000x64, .f32⟩
  | .hbm, ⟨34, _⟩ => ⟨S250000x64, .f32⟩
  | .hbm, ⟨35, _⟩ => ⟨S_, .f32⟩
  | .hbm, ⟨36, _⟩ => ⟨S250000x64, .f32⟩
  | .hbm, ⟨37, _⟩ => ⟨S250000x64, .f32⟩
  | .hbm, ⟨38, _⟩ => ⟨S250000x64, .f32⟩
  | .hbm, ⟨39, _⟩ => ⟨S1x64, .f32⟩
  | .hbm, ⟨40, _⟩ => ⟨S250000x64, .f32⟩
  | .hbm, ⟨41, _⟩ => ⟨S250000x64, .f32⟩
  | .hbm, ⟨42, _⟩ => ⟨S_, .i32⟩
  | .hbm, ⟨43, _⟩ => ⟨S250000, .i32⟩
  | .hbm, ⟨44, _⟩ => ⟨S250000, .i1⟩
  | .hbm, ⟨45, _⟩ => ⟨S_, .i32⟩
  | .hbm, ⟨46, _⟩ => ⟨S250000, .i32⟩
  | .hbm, ⟨47, _⟩ => ⟨S250000, .i32⟩
  | .hbm, ⟨48, _⟩ => ⟨S250000, .i32⟩
  | .hbm, ⟨49, _⟩ => ⟨S250000x1, .i32⟩
  | .hbm, ⟨50, _⟩ => ⟨S200000x64, .f32⟩
  | .hbm, ⟨51, _⟩ => ⟨S_, .i32⟩
  | .hbm, ⟨52, _⟩ => ⟨S500000, .i32⟩
  | .hbm, ⟨53, _⟩ => ⟨S500000, .i1⟩
  | .hbm, ⟨54, _⟩ => ⟨S_, .i32⟩
  | .hbm, ⟨55, _⟩ => ⟨S500000, .i32⟩
  | .hbm, ⟨56, _⟩ => ⟨S500000, .i32⟩
  | .hbm, ⟨57, _⟩ => ⟨S500000, .i32⟩
  | .hbm, ⟨58, _⟩ => ⟨S500000x1, .i32⟩
  | .hbm, ⟨59, _⟩ => ⟨S500000x64, .f32⟩
  | .hbm, ⟨60, _⟩ => ⟨S250000x128, .f32⟩
  | .hbm, ⟨61, _⟩ => ⟨S250000x128, .f32⟩
  | .hbm, ⟨62, _⟩ => ⟨S1x128, .f32⟩
  | .hbm, ⟨63, _⟩ => ⟨S250000x128, .f32⟩
  | .hbm, ⟨64, _⟩ => ⟨S250000x128, .f32⟩
  | .hbm, ⟨65, _⟩ => ⟨S_, .f32⟩
  | .hbm, ⟨66, _⟩ => ⟨S250000x128, .f32⟩
  | .hbm, ⟨67, _⟩ => ⟨S250000x128, .f32⟩
  | .hbm, ⟨68, _⟩ => ⟨S250000x128, .f32⟩
  | .hbm, ⟨69, _⟩ => ⟨S1x128, .f32⟩
  | .hbm, ⟨70, _⟩ => ⟨S250000x128, .f32⟩
  | .hbm, ⟨71, _⟩ => ⟨S250000x128, .f32⟩
  | .hbm, ⟨72, _⟩ => ⟨S500000x64, .f32⟩
  | .hbm, ⟨73, _⟩ => ⟨S_, .i32⟩
  | .hbm, ⟨74, _⟩ => ⟨S500000, .i32⟩
  | .hbm, ⟨75, _⟩ => ⟨S500000, .i1⟩
  | .hbm, ⟨76, _⟩ => ⟨S_, .i32⟩
  | .hbm, ⟨77, _⟩ => ⟨S500000, .i32⟩
  | .hbm, ⟨78, _⟩ => ⟨S500000, .i32⟩
  | .hbm, ⟨79, _⟩ => ⟨S500000, .i32⟩
  | .hbm, ⟨80, _⟩ => ⟨S500000x1, .i32⟩
  | .hbm, ⟨81, _⟩ => ⟨S200000x64, .f32⟩
  | .hbm, ⟨82, _⟩ => ⟨S_, .i32⟩
  | .hbm, ⟨83, _⟩ => ⟨S750000, .i32⟩
  | .hbm, ⟨84, _⟩ => ⟨S750000, .i1⟩
  | .hbm, ⟨85, _⟩ => ⟨S_, .i32⟩
  | .hbm, ⟨86, _⟩ => ⟨S750000, .i32⟩
  | .hbm, ⟨87, _⟩ => ⟨S750000, .i32⟩
  | .hbm, ⟨88, _⟩ => ⟨S750000, .i32⟩
  | .hbm, ⟨89, _⟩ => ⟨S750000x1, .i32⟩
  | .hbm, ⟨90, _⟩ => ⟨S750000x64, .f32⟩
  | .hbm, ⟨91, _⟩ => ⟨S250000x192, .f32⟩
  | .hbm, ⟨92, _⟩ => ⟨S250000x192, .f32⟩
  | .hbm, ⟨93, _⟩ => ⟨S1x192, .f32⟩
  | .hbm, ⟨94, _⟩ => ⟨S250000x192, .f32⟩
  | .hbm, ⟨95, _⟩ => ⟨S250000x192, .f32⟩
  | .hbm, ⟨96, _⟩ => ⟨S_, .f32⟩
  | .hbm, ⟨97, _⟩ => ⟨S250000x192, .f32⟩
  | .hbm, ⟨98, _⟩ => ⟨S250000x192, .f32⟩
  | .hbm, ⟨99, _⟩ => ⟨S250000x192, .f32⟩
  | .hbm, ⟨100, _⟩ => ⟨S1x192, .f32⟩
  | .hbm, ⟨101, _⟩ => ⟨S250000x192, .f32⟩
  | .hbm, ⟨102, _⟩ => ⟨S250000x192, .f32⟩
  | .hbm, ⟨103, _⟩ => ⟨S750000x64, .f32⟩
  | .hbm, ⟨104, _⟩ => ⟨S_, .i32⟩
  | .hbm, ⟨105, _⟩ => ⟨S750000, .i32⟩
  | .hbm, ⟨106, _⟩ => ⟨S750000, .i1⟩
  | .hbm, ⟨107, _⟩ => ⟨S_, .i32⟩
  | .hbm, ⟨108, _⟩ => ⟨S750000, .i32⟩
  | .hbm, ⟨109, _⟩ => ⟨S750000, .i32⟩
  | .hbm, ⟨110, _⟩ => ⟨S750000, .i32⟩
  | .hbm, ⟨111, _⟩ => ⟨S750000x1, .i32⟩
  | .hbm, ⟨112, _⟩ => ⟨S200000x64, .f32⟩
  | .hbm, ⟨113, _⟩ => ⟨S200000x128, .f32⟩
  | .hbm, ⟨114, _⟩ => ⟨S200000x128, .f32⟩
  | .hbm, ⟨115, _⟩ => ⟨S1x128, .f32⟩
  | .hbm, ⟨116, _⟩ => ⟨S200000x128, .f32⟩
  | .hbm, ⟨117, _⟩ => ⟨S200000x128, .f32⟩
  | .hbm, ⟨118, _⟩ => ⟨S_, .f32⟩
  | .hbm, ⟨119, _⟩ => ⟨S200000x128, .f32⟩
  | .hbm, ⟨120, _⟩ => ⟨S200000x128, .f32⟩
  | .hbm, ⟨121, _⟩ => ⟨S200000x64, .f32⟩
  | .hbm, ⟨122, _⟩ => ⟨S1x64, .f32⟩
  | .hbm, ⟨123, _⟩ => ⟨S200000x64, .f32⟩
  | .hbm, ⟨124, _⟩ => ⟨S200000x64, .f32⟩
  | _, _ => ⟨S200000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_cst : Ref sig .tc := ⟨.hbm, 20, rfl⟩
abbrev main_v0 : Ref sig .tc := ⟨.hbm, 21, rfl⟩
abbrev main_c : Ref sig .tc := ⟨.hbm, 22, rfl⟩
abbrev main_v1 : Ref sig .tc := ⟨.hbm, 23, rfl⟩
abbrev main_v2 : Ref sig .tc := ⟨.hbm, 24, rfl⟩
abbrev main_c_0 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_call0_cst : Ref sig .tc := ⟨.hbm, 35, rfl⟩
abbrev main_call0_v0 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_c_1 : Ref sig .tc := ⟨.hbm, 42, rfl⟩
abbrev main_v17 : Ref sig .tc := ⟨.hbm, 43, rfl⟩
abbrev main_v18 : Ref sig .tc := ⟨.hbm, 44, rfl⟩
abbrev main_c_2 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_c_3 : Ref sig .tc := ⟨.hbm, 51, rfl⟩
abbrev main_v24 : Ref sig .tc := ⟨.hbm, 52, rfl⟩
abbrev main_v25 : Ref sig .tc := ⟨.hbm, 53, rfl⟩
abbrev main_c_4 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_call1_cst : Ref sig .tc := ⟨.hbm, 65, rfl⟩
abbrev main_call1_v0 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_c_5 : Ref sig .tc := ⟨.hbm, 73, rfl⟩
abbrev main_v42 : Ref sig .tc := ⟨.hbm, 74, rfl⟩
abbrev main_v43 : Ref sig .tc := ⟨.hbm, 75, rfl⟩
abbrev main_c_6 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_c_7 : Ref sig .tc := ⟨.hbm, 82, rfl⟩
abbrev main_v49 : Ref sig .tc := ⟨.hbm, 83, rfl⟩
abbrev main_v50 : Ref sig .tc := ⟨.hbm, 84, rfl⟩
abbrev main_c_8 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_call2_cst : Ref sig .tc := ⟨.hbm, 96, rfl⟩
abbrev main_call2_v0 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_c_9 : Ref sig .tc := ⟨.hbm, 104, rfl⟩
abbrev main_v67 : Ref sig .tc := ⟨.hbm, 105, rfl⟩
abbrev main_v68 : Ref sig .tc := ⟨.hbm, 106, rfl⟩
abbrev main_c_10 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_call3_cst : Ref sig .tc := ⟨.hbm, 118, rfl⟩
abbrev main_call3_v0 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩

abbrev nD : Nat := 1
abbrev τ : Topo := Topo.v7x

variable {F : FTy → Type} [FloatOps F]

class Facts₀ : Prop where
  bcast_S_S200000x64 : S_.BroadcastsInDim S200000x64 (![] : Fin 0 → Fin S200000x64.rank)
  bcast_S_S250000 : S_.BroadcastsInDim S250000 (![] : Fin 0 → Fin S250000.rank)
  bcast_S250000_S250000x1_0 : S250000.BroadcastsInDim S250000x1 (![0] : Fin 1 → Fin S250000x1.rank)
  bcast_S64_S1x64_1 : S64.BroadcastsInDim S1x64 (![1] : Fin 1 → Fin S1x64.rank)
  bcast_S1x64_S250000x64_0_1 : S1x64.BroadcastsInDim S250000x64 (![0, 1] : Fin 2 → Fin S250000x64.rank)
  bcast_S_S250000x64 : S_.BroadcastsInDim S250000x64 (![] : Fin 0 → Fin S250000x64.rank)
  bcast_S_S500000 : S_.BroadcastsInDim S500000 (![] : Fin 0 → Fin S500000.rank)
  bcast_S500000_S500000x1_0 : S500000.BroadcastsInDim S500000x1 (![0] : Fin 1 → Fin S500000x1.rank)
  shapeCasts_S500000x64_S250000x128 : S500000x64.ShapeCasts S250000x128
  bcast_S128_S1x128_1 : S128.BroadcastsInDim S1x128 (![1] : Fin 1 → Fin S1x128.rank)
  bcast_S1x128_S250000x128_0_1 : S1x128.BroadcastsInDim S250000x128 (![0, 1] : Fin 2 → Fin S250000x128.rank)
  bcast_S_S250000x128 : S_.BroadcastsInDim S250000x128 (![] : Fin 0 → Fin S250000x128.rank)
  shapeCasts_S250000x128_S500000x64 : S250000x128.ShapeCasts S500000x64
  bcast_S_S750000 : S_.BroadcastsInDim S750000 (![] : Fin 0 → Fin S750000.rank)
  bcast_S750000_S750000x1_0 : S750000.BroadcastsInDim S750000x1 (![0] : Fin 1 → Fin S750000x1.rank)
  shapeCasts_S750000x64_S250000x192 : S750000x64.ShapeCasts S250000x192
  bcast_S192_S1x192_1 : S192.BroadcastsInDim S1x192 (![1] : Fin 1 → Fin S1x192.rank)
  bcast_S1x192_S250000x192_0_1 : S1x192.BroadcastsInDim S250000x192 (![0, 1] : Fin 2 → Fin S250000x192.rank)
  bcast_S_S250000x192 : S_.BroadcastsInDim S250000x192 (![] : Fin 0 → Fin S250000x192.rank)
  shapeCasts_S250000x192_S750000x64 : S250000x192.ShapeCasts S750000x64
  concatenates_S200000x64_S200000x64_S200000x128_d1 : Shape.Concatenates [S200000x64, S200000x64] S200000x128 1
  bcast_S1x128_S200000x128_0_1 : S1x128.BroadcastsInDim S200000x128 (![0, 1] : Fin 2 → Fin S200000x128.rank)
  bcast_S_S200000x128 : S_.BroadcastsInDim S200000x128 (![] : Fin 0 → Fin S200000x128.rank)
  bcast_S1x64_S200000x64_0_1 : S1x64.BroadcastsInDim S200000x64 (![0, 1] : Fin 2 → Fin S200000x64.rank)
  gather_S200000x64_S250000x1_S250000x64_1_0_n_n_0_1_164_wf : GatherDims.WF S200000x64 S250000x1 S250000x64 [1] [0] [] [0] [] 1 ![1, 64]
  dot_S250000x64_S64x64_S250000x64_1_0_0_1_n_n_wf : DotDims.WF S250000x64 S64x64 S250000x64 [1] [0] [0] [1] [] []
  scatter_S200000x64_S250000x1_S250000x64_1_0_0_1_wf : ScatterDims.WF S200000x64 S250000x1 S250000x64 [1] [0] [0] 1
  gather_S200000x64_S500000x1_S500000x64_1_0_n_n_0_1_164_wf : GatherDims.WF S200000x64 S500000x1 S500000x64 [1] [0] [] [0] [] 1 ![1, 64]
  dot_S250000x128_S128x128_S250000x128_1_0_0_1_n_n_wf : DotDims.WF S250000x128 S128x128 S250000x128 [1] [0] [0] [1] [] []
  scatter_S200000x64_S500000x1_S500000x64_1_0_0_1_wf : ScatterDims.WF S200000x64 S500000x1 S500000x64 [1] [0] [0] 1
  gather_S200000x64_S750000x1_S750000x64_1_0_n_n_0_1_164_wf : GatherDims.WF S200000x64 S750000x1 S750000x64 [1] [0] [] [0] [] 1 ![1, 64]
  dot_S250000x192_S192x192_S250000x192_1_0_0_1_n_n_wf : DotDims.WF S250000x192 S192x192 S250000x192 [1] [0] [0] [1] [] []
  scatter_S200000x64_S750000x1_S750000x64_1_0_0_1_wf : ScatterDims.WF S200000x64 S750000x1 S750000x64 [1] [0] [0] 1
  dot_S200000x128_S128x128_S200000x128_1_0_0_1_n_n_wf : DotDims.WF S200000x128 S128x128 S200000x128 [1] [0] [0] [1] [] []
  dot_S200000x128_S128x64_S200000x64_1_0_0_1_n_n_wf : DotDims.WF S200000x128 S128x64 S200000x64 [1] [0] [0] [1] [] []

variable [Facts₀]

def gather_S200000x64_S250000x1_S250000x64_1_0_n_n_0_1_164 : GatherDims S200000x64 S250000x1 S250000x64 where
  offsetDims := [1]
  collapsedSliceDims := [0]
  operandBatchingDims := []
  startIndicesBatchingDims := []
  startIndexMap := [0]
  indexVectorDim := 1
  sliceSizes := ![1, 64]
  wf := gather_S200000x64_S250000x1_S250000x64_1_0_n_n_0_1_164_wf
def dot_S250000x64_S64x64_S250000x64_1_0_0_1_n_n : DotDims S250000x64 S64x64 S250000x64 where
  lhsContracting := [1]
  rhsContracting := [0]
  lhsNonContracting := [0]
  rhsNonContracting := [1]
  lhsBatch := []
  rhsBatch := []
  wf := dot_S250000x64_S64x64_S250000x64_1_0_0_1_n_n_wf
def scatter_S200000x64_S250000x1_S250000x64_1_0_0_1 : ScatterDims S200000x64 S250000x1 S250000x64 where
  updateWindowDims := [1]
  insertedWindowDims := [0]
  scatterDimsToOperandDims := [0]
  indexVectorDim := 1
  wf := scatter_S200000x64_S250000x1_S250000x64_1_0_0_1_wf
def gather_S200000x64_S500000x1_S500000x64_1_0_n_n_0_1_164 : GatherDims S200000x64 S500000x1 S500000x64 where
  offsetDims := [1]
  collapsedSliceDims := [0]
  operandBatchingDims := []
  startIndicesBatchingDims := []
  startIndexMap := [0]
  indexVectorDim := 1
  sliceSizes := ![1, 64]
  wf := gather_S200000x64_S500000x1_S500000x64_1_0_n_n_0_1_164_wf
def dot_S250000x128_S128x128_S250000x128_1_0_0_1_n_n : DotDims S250000x128 S128x128 S250000x128 where
  lhsContracting := [1]
  rhsContracting := [0]
  lhsNonContracting := [0]
  rhsNonContracting := [1]
  lhsBatch := []
  rhsBatch := []
  wf := dot_S250000x128_S128x128_S250000x128_1_0_0_1_n_n_wf
def scatter_S200000x64_S500000x1_S500000x64_1_0_0_1 : ScatterDims S200000x64 S500000x1 S500000x64 where
  updateWindowDims := [1]
  insertedWindowDims := [0]
  scatterDimsToOperandDims := [0]
  indexVectorDim := 1
  wf := scatter_S200000x64_S500000x1_S500000x64_1_0_0_1_wf
def gather_S200000x64_S750000x1_S750000x64_1_0_n_n_0_1_164 : GatherDims S200000x64 S750000x1 S750000x64 where
  offsetDims := [1]
  collapsedSliceDims := [0]
  operandBatchingDims := []
  startIndicesBatchingDims := []
  startIndexMap := [0]
  indexVectorDim := 1
  sliceSizes := ![1, 64]
  wf := gather_S200000x64_S750000x1_S750000x64_1_0_n_n_0_1_164_wf
def dot_S250000x192_S192x192_S250000x192_1_0_0_1_n_n : DotDims S250000x192 S192x192 S250000x192 where
  lhsContracting := [1]
  rhsContracting := [0]
  lhsNonContracting := [0]
  rhsNonContracting := [1]
  lhsBatch := []
  rhsBatch := []
  wf := dot_S250000x192_S192x192_S250000x192_1_0_0_1_n_n_wf
def scatter_S200000x64_S750000x1_S750000x64_1_0_0_1 : ScatterDims S200000x64 S750000x1 S750000x64 where
  updateWindowDims := [1]
  insertedWindowDims := [0]
  scatterDimsToOperandDims := [0]
  indexVectorDim := 1
  wf := scatter_S200000x64_S750000x1_S750000x64_1_0_0_1_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def dot_S200000x128_S128x64_S200000x64_1_0_0_1_n_n : DotDims S200000x128 S128x64 S200000x64 where
  lhsContracting := [1]
  rhsContracting := [0]
  lhsNonContracting := [0]
  rhsNonContracting := [1]
  lhsBatch := []
  rhsBatch := []
  wf := dot_S200000x128_S128x64_S200000x64_1_0_0_1_n_n_wf

class Facts : Prop extends Facts₀ where

variable [Facts]
-- ==== Proof.LibReadAt.lean ====
/-
  Layout operations, a lane sum and a plain matrix product read at an index given by coordinates, at the extended reals:
  a reshape that merges or splits the two leading axes (row-major: row g·a + i), a vector viewed as a column, a matrix
  under two leading unit axes, a per-row scalar broadcast over a stack of matrices, the sum along the lanes of a matrix,
  and an m×k by k×n product into a zero accumulator.
-/
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.ReadAt

open Idealize.ShloMosaic Idealize.ShloMosaic.ValueIdx

variable {α : Type}

/-! ## Shape casts that merge or split the two leading axes (row-major: row `g * a + i`) -/

/-- A `[G, a, b]` array cast to `[R, b]` (R = G·a) reads, at row `r = g·a + i` and column `j`, the operand at `(g, i, j)`. -/
theorem shapeCast_gab_rb_apply {G a b R : ℕ} (x : (⟨3, ![G, a, b]⟩ : Shape).Idx → α)
    (h : (⟨3, ![G, a, b]⟩ : Shape).ShapeCasts ⟨2, ![R, b]⟩) (g : Fin G) (i : Fin a) (j : Fin b) (r : Fin R)
    (hr : r.val = g.val * a + i.val) :
    shapeCast ⟨2, ![R, b]⟩ x h (ix2 r j) = x (ix3 g i j) :=
  shapeCast_apply x h _ _ (by
    rw [Shape.rowMajor_val_three, Shape.rowMajor_val_two]
    show (g.val * a + i.val) * b + j.val = r.val * b + j.val
    rw [hr])

/-- An `[R, b]` array cast to `[G, a, b]` (R = G·a) reads, at `(g, i, j)`, the operand at row `r = g·a + i`, column `j`. -/
theorem shapeCast_rb_gab_apply {G a b R : ℕ} (x : (⟨2, ![R, b]⟩ : Shape).Idx → α)
    (h : (⟨2, ![R, b]⟩ : Shape).ShapeCasts ⟨3, ![G, a, b]⟩) (g : Fin G) (i : Fin a) (j : Fin b) (r : Fin R)
    (hr : r.val = g.val * a + i.val) :
    shapeCast ⟨3, ![G, a, b]⟩ x h (ix3 g i j) = x (ix2 r j) :=
  shapeCast_apply x h _ _ (by
    rw [Shape.rowMajor_val_three, Shape.rowMajor_val_two]
    show r.val * b + j.val = (g.val * a + i.val) * b + j.val
    rw [hr])

/-! ## The keepdims column forms -/

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, b]` array cast to `[1, 1, a, b]` reads, at `(u, u', i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    rw [hu, hu', Nat.zero_mul, Nat.zero_add])

/-! ## A per-row scalar `[a, 1, 1]` broadcast over `[a, b, c]` -/

theorem broadcastTo_a11_abc_apply {a b c : ℕ} (v : (⟨3, ![a, 1, 1]⟩ : Shape).Idx → α)
    (h : (⟨3, ![a, 1, 1]⟩ : Shape).Broadcasts ⟨3, ![a, b, c]⟩) (p : Fin a) (q : Fin b) (r : Fin c) :
    broadcastTo ⟨3, ![a, b, c]⟩ v h (ix3 p q r) = v (ix3 p (0 : Fin 1) (0 : Fin 1)) := by
  refine broadcastTo_apply v h (ix3 p q r) (ix3 p (0 : Fin 1) (0 : Fin 1)) fun ax => ?_
  match ax with
  | ⟨0, _⟩ =>
    show p.val = if a = 1 then 0 else p.val
    split
    · have := p.isLt; omega
    · rfl
  | ⟨1, _⟩ => rfl
  | ⟨2, _⟩ => rfl

/-! ## A sum along the lanes of a matrix -/

/-- The index a one-axis reduction of a matrix along axis 1 inserts the coordinate into. -/
theorem lift_axis1 {a b : ℕ} (h : (⟨2, ![a, b]⟩ : Shape).Reduces [1] ⟨1, ![a]⟩) (r : Fin a) (k : Fin b) :
    h.lift (ix1 r) k = ix2 r k := by
  funext ax; apply Fin.ext
  match ax with
  | ⟨0, _⟩ => rfl
  | ⟨1, _⟩ => rfl

/-- A `vector.multi_reduction <add>` of an `[a, b]` vector along axis 1, at row `r`, is the sum of the row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction (F := Ideal) .add [1] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_axis1 h r k)

/-! ## A plain matrix product into the zero accumulator -/

/-- `[m, k] × [k, n]` into the zero splat, at `(i, j)`: the sum over the contracted coordinate of the products of the entries. -/
theorem matmul_plain_zero_apply {m k n : ℕ} {φ₁ φ₂ : FTy} (prec : Option ContractPrecision)
    (A : FVec Ideal ⟨2, ![m, k]⟩ φ₁) (B : FVec Ideal ⟨2, ![k, n]⟩ φ₂) (i : Fin m) (j : Fin n) :
    matmul (DotDims.plain m k n) prec A B (constant ⟨2, ![m, n]⟩ .f32 0x00000000#32) (ix2 i j)
      = ∑ c : Fin k, A (ix2 i c) * B (ix2 c j) := by
  show FloatOps.matmul _ prec A B _ (ix2 i j) = _
  rw [Ideal.matmul_constant_zero_apply, ← Equiv.sum_comp (contrEquiv1 (DotDims.plain m k n) k rfl rfl).symm]
  refine Finset.sum_congr rfl fun c _ => ?_
  have c2 := contrEquiv1_symm_val (DotDims.plain m k n) k rfl rfl c
  have l2 : (DotDims.plain m k n).lhsIdx (ix2 i j) ((contrEquiv1 _ k rfl rfl).symm c) = ix2 i c := by
    funext ax; apply Fin.ext
    match ax with
    | ⟨0, _⟩ => simp [DotDims.lhsIdx, DotDims.plain]; rfl
    | ⟨1, _⟩ => simp [DotDims.lhsIdx, DotDims.plain]; exact c2
  have r2 : (DotDims.plain m k n).rhsIdx (ix2 i j) ((contrEquiv1 _ k rfl rfl).symm c) = ix2 c j := by
    funext ax; apply Fin.ext
    match ax with
    | ⟨0, _⟩ => simp [DotDims.rhsIdx, DotDims.plain]; exact c2
    | ⟨1, _⟩ => simp [DotDims.rhsIdx, DotDims.plain]; rfl
  rw [l2, r2]

end Cert.ReadAt

end
-- ==== Proof.LibHostMatmul.lean ====
/-
  The host's plain matrix product read at an index, at the extended reals: `[m, k] × [k, n]` as a `dot_general`
  contracting the left operand's columns against the right operand's rows is, at `(i, j)`, the sum over the
  contracted coordinate of the products of the entries (no accumulator, no rounding, no order).
-/
import Idealize.ShloMosaic.Lib.ValueIdx
import Idealize.ShloMosaic.PureOps.Ideal.Laws

noncomputable section

open scoped BigOperators

namespace Cert.HostMatmul

open Idealize.ShloMosaic Idealize.ShloMosaic.ValueIdx

/-- `[m, k] × [k, n]` on the host, at `(i, j)`: `∑ c, A[i, c] · B[c, j]`. -/
theorem dotGeneral_plain_apply {m k n : ℕ} {φ₁ φ₂ : FTy} (prec : Option ContractPrecision)
    (A : FVec Ideal ⟨2, ![m, k]⟩ φ₁) (B : FVec Ideal ⟨2, ![k, n]⟩ φ₂) (i : Fin m) (j : Fin n) :
    Host.dotGeneral (DotDims.plain m k n) prec A B (ix2 i j) = ∑ c : Fin k, A (ix2 i c) * B (ix2 c j) := by
  show FloatOps.dotGeneral _ prec _ A B (ix2 i j) = _
  rw [Ideal.dotGeneral_apply, ← Equiv.sum_comp (contrEquiv1 (DotDims.plain m k n) k rfl rfl).symm]
  refine Finset.sum_congr rfl fun c _ => ?_
  have c2 := contrEquiv1_symm_val (DotDims.plain m k n) k rfl rfl c
  have l2 : (DotDims.plain m k n).lhsIdx (ix2 i j) ((contrEquiv1 _ k rfl rfl).symm c) = ix2 i c := by
    funext ax; apply Fin.ext
    match ax with
    | ⟨0, _⟩ => simp [DotDims.lhsIdx, DotDims.plain]; rfl
    | ⟨1, _⟩ => simp [DotDims.lhsIdx, DotDims.plain]; exact c2
  have r2 : (DotDims.plain m k n).rhsIdx (ix2 i j) ((contrEquiv1 _ k rfl rfl).symm c) = ix2 c j := by
    funext ax; apply Fin.ext
    match ax with
    | ⟨0, _⟩ => simp [DotDims.rhsIdx, DotDims.plain]; exact c2
    | ⟨1, _⟩ => simp [DotDims.rhsIdx, DotDims.plain]; rfl
  rw [l2, r2]

end Cert.HostMatmul

end
-- ==== Proof.LibRowMlp.lean ====
/-
  A two-layer perceptron applied to every row of a matrix, at the extended reals: entry (r, j) of
  relu (x · w₁ + b₁) · w₂ + b₂ is
      (∑ k, max ((∑ l, x[r, l] · w₁[l, k]) + b₁[0, k]) 0 · w₂[k, j]) + b₂[0, j],
  the biases given as one-row matrices. Two programs compute it: a vector unit's body on a block of rows (two
  matrix products into zero accumulators, the bias rows broadcast down the block, format changes that are the
  identity on the extended reals) and the host's line (two dot_generals, the bias rows broadcast, a maximum with
  a zero splat). Both are read here at an index, generic in the number of rows and the width.
-/
import Idealize.ShloMosaic.Lib.ValueIdx
import Idealize.ShloMosaic.Lib.Pipeline.Value
import Idealize.ShloMosaic.PureOps.Ideal.Laws
import proofs.«163699_j52776558133695_2_alg».proof.Proof.LibReadAt
import proofs.«163699_j52776558133695_2_alg».proof.Proof.LibHostMatmul

noncomputable section

open scoped BigOperators

namespace Cert.RowMlp

open Idealize.ShloMosaic Idealize.ShloMosaic.ValueIdx

/-- Entry (r, j) of the perceptron's result. -/
def mlpAt {T d : ℕ} (x : (⟨2, ![T, d]⟩ : Shape).Idx → EReal) (w1 : (⟨2, ![d, d]⟩ : Shape).Idx → EReal)
    (b1 : (⟨2, ![1, d]⟩ : Shape).Idx → EReal) (w2 : (⟨2, ![d, d]⟩ : Shape).Idx → EReal)
    (b2 : (⟨2, ![1, d]⟩ : Shape).Idx → EReal) (r : Fin T) (j : Fin d) : EReal :=
  (∑ k : Fin d, max ((∑ l : Fin d, x (ix2 r l) * w1 (ix2 l k)) + b1 (ix2 (0 : Fin 1) k)) 0 * w2 (ix2 k j))
    + b2 (ix2 (0 : Fin 1) j)

/-- The perceptron's result as one array. -/
def mlpRows {T d : ℕ} (x : (⟨2, ![T, d]⟩ : Shape).Idx → EReal) (w1 : (⟨2, ![d, d]⟩ : Shape).Idx → EReal)
    (b1 : (⟨2, ![1, d]⟩ : Shape).Idx → EReal) (w2 : (⟨2, ![d, d]⟩ : Shape).Idx → EReal)
    (b2 : (⟨2, ![1, d]⟩ : Shape).Idx → EReal) : (⟨2, ![T, d]⟩ : Shape).Idx → EReal :=
  fun i => mlpAt x w1 b1 w2 b2 (i 0) (i 1)

theorem mlpRows_apply {T d : ℕ} (x : (⟨2, ![T, d]⟩ : Shape).Idx → EReal) (w1 : (⟨2, ![d, d]⟩ : Shape).Idx → EReal)
    (b1 : (⟨2, ![1, d]⟩ : Shape).Idx → EReal) (w2 : (⟨2, ![d, d]⟩ : Shape).Idx → EReal)
    (b2 : (⟨2, ![1, d]⟩ : Shape).Idx → EReal) (r : Fin T) (j : Fin d) :
    mlpRows x w1 b1 w2 b2 (ix2 r j) = mlpAt x w1 b1 w2 b2 r j := rfl

/-! ## A one-row matrix broadcast down the rows -/

/-- The vector unit's broadcast of a `[1, d]` row to `[R, d]`, at (p, q): the row's entry q. -/
theorem rowBroadcastTo_apply {α : Type} {R d : ℕ} (v : (⟨2, ![1, d]⟩ : Shape).Idx → α)
    (h : (⟨2, ![1, d]⟩ : Shape).Broadcasts ⟨2, ![R, d]⟩) (p : Fin R) (q : Fin d) :
    broadcastTo ⟨2, ![R, d]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if d = 1 then 0 else q.val
    split
    · have := q.isLt; omega
    · rfl

/-- The host's broadcast of a `[1, d]` row to `[T, d]` along both axes, at (r, k): the row's entry k. -/
theorem rowBroadcastInDim_apply {α : Type} {T d : ℕ} (v : (⟨2, ![1, d]⟩ : Shape).Idx → α)
    (h : (⟨2, ![1, d]⟩ : Shape).BroadcastsInDim ⟨2, ![T, d]⟩ ![0, 1]) (r : Fin T) (k : Fin d) :
    broadcastInDim ⟨2, ![T, d]⟩ ![0, 1] h v (ix2 r k) = v (ix2 (0 : Fin 1) k) := by
  refine broadcastInDim_apply ![0, 1] h v (ix2 r k) (ix2 (0 : Fin 1) k) fun ax => ?_
  match ax with
  | ⟨0, _⟩ => rfl
  | ⟨1, _⟩ =>
    show k.val = if d = 1 then 0 else k.val
    split
    · have := k.isLt; omega
    · rfl

/-! ## The vector unit's body on a block of rows -/

/-- The body's stored value at (p, q) of its block: the perceptron's entry of the block's rows. -/
theorem mlpBlock_apply {R d : ℕ} (v0 : FVec Ideal ⟨2, ![R, d]⟩ .bf16) (v2 : FVec Ideal ⟨2, ![d, d]⟩ .f32)
    (v5 : FVec Ideal ⟨2, ![1, d]⟩ .f32) (v12 : FVec Ideal ⟨2, ![d, d]⟩ .f32) (v15 : FVec Ideal ⟨2, ![1, d]⟩ .f32)
    (hx : (⟨2, ![R, d]⟩ : Shape).ShapeCasts ⟨2, ![R, d]⟩) (hb : (⟨2, ![1, d]⟩ : Shape).ShapeCasts ⟨2, ![1, d]⟩)
    (hbr : (⟨2, ![1, d]⟩ : Shape).Broadcasts ⟨2, ![R, d]⟩) (h16 : FTy.bf16.bits < FTy.f32.bits) (p : Fin R) (q : Fin d) :
    (truncf .bf16 (addf (matmul (DotDims.plain R d d) none
        (truncf .bf16 (maximumf (addf (matmul (DotDims.plain R d d) none (shapeCast ⟨2, ![R, d]⟩ v0 hx) (truncf .bf16 v2 h16)
            (constant ⟨2, ![R, d]⟩ .f32 0x00000000#32)) (broadcastTo ⟨2, ![R, d]⟩ (shapeCast ⟨2, ![1, d]⟩ v5 hb) hbr))
          (broadcast ⟨2, ![R, d]⟩ (Scalar.ofBits .f32 0x00000000#32))) h16)
        (truncf .bf16 v12 h16) (constant ⟨2, ![R, d]⟩ .f32 0x00000000#32))
      (broadcastTo ⟨2, ![R, d]⟩ (shapeCast ⟨2, ![1, d]⟩ v15 hb) hbr)) h16 : FVec Ideal ⟨2, ![R, d]⟩ .bf16) (ix2 p q)
      = mlpAt v0 v2 v5 v12 v15 p q := by
  rw [shapeCast_self, shapeCast_self, shapeCast_self]
  show matmul (DotDims.plain R d d) none _ _ _ (ix2 p q) + broadcastTo ⟨2, ![R, d]⟩ v15 hbr (ix2 p q) = _
  rw [Cert.ReadAt.matmul_plain_zero_apply, rowBroadcastTo_apply]
  unfold mlpAt
  refine congrArg (· + v15 (ix2 (0 : Fin 1) q)) (Finset.sum_congr rfl fun k _ => ?_)
  refine congrArg (· * v12 (ix2 k q)) ?_
  show max (matmul (DotDims.plain R d d) none v0 _ _ (ix2 p k) + broadcastTo ⟨2, ![R, d]⟩ v5 hbr (ix2 p k))
      (Ideal.ofBits .f32 0x00000000#32) = _
  rw [Cert.ReadAt.matmul_plain_zero_apply, rowBroadcastTo_apply, Ideal.ofBits_zero_f32]
  rfl

/-! ## The host's line -/

/-- The host's two dot_generals with broadcast bias rows and a maximum with the zero splat: the perceptron. -/
theorem hostMlp_eq {T d : ℕ} (x : FVec Ideal ⟨2, ![T, d]⟩ .f32) (w1 : FVec Ideal ⟨2, ![d, d]⟩ .f32)
    (b1 : FVec Ideal ⟨2, ![1, d]⟩ .f32) (w2 : FVec Ideal ⟨2, ![d, d]⟩ .f32) (b2 : FVec Ideal ⟨2, ![1, d]⟩ .f32)
    (hb : (⟨2, ![1, d]⟩ : Shape).BroadcastsInDim ⟨2, ![T, d]⟩ ![0, 1])
    (h0 : (⟨0, ![]⟩ : Shape).BroadcastsInDim ⟨2, ![T, d]⟩ ![]) :
    addf (Host.dotGeneral (DotDims.plain T d d) none
        (maximumf (addf (Host.dotGeneral (DotDims.plain T d d) none x w1) (broadcastInDim ⟨2, ![T, d]⟩ ![0, 1] hb b1))
          (broadcastInDim ⟨2, ![T, d]⟩ ![] h0 (constant (F := Ideal) ⟨0, ![]⟩ .f32 0x00000000#32))) w2)
      (broadcastInDim ⟨2, ![T, d]⟩ ![0, 1] hb b2) = mlpRows x w1 b1 w2 b2 := by
  funext i
  obtain ⟨r, j, rfl⟩ : ∃ (r : Fin T) (j : Fin d), i = ix2 r j := ⟨i 0, i 1, eq_ix2 i⟩
  rw [mlpRows_apply]
  show Host.dotGeneral (DotDims.plain T d d) none _ w2 (ix2 r j) + broadcastInDim ⟨2, ![T, d]⟩ ![0, 1] hb b2 (ix2 r j) = _
  rw [Cert.HostMatmul.dotGeneral_plain_apply, rowBroadcastInDim_apply]
  unfold mlpAt
  refine congrArg (· + b2 (ix2 (0 : Fin 1) j)) (Finset.sum_congr rfl fun k _ => ?_)
  refine congrArg (· * w2 (ix2 k j)) ?_
  show max (Host.dotGeneral (DotDims.plain T d d) none x w1 (ix2 r k) + broadcastInDim ⟨2, ![T, d]⟩ ![0, 1] hb b1 (ix2 r k))
      (Ideal.ofBits .f32 0x00000000#32) = _
  rw [Cert.HostMatmul.dotGeneral_plain_apply, rowBroadcastInDim_apply, Ideal.ofBits_zero_f32]

end Cert.RowMlp

end
-- ==== Proof.LibRowUpdate.lean ====
/-
  The update perceptron applied to every row of a pair of matrices, at the extended reals. The first layer takes
  the row of the first matrix joined with the row of the second; its weight matrix is given either as one matrix of
  joined height or as its two halves. Entry (r, j) of the result is
      (∑ k, max (((∑ l, s[r, l] · wa[l, k]) + (∑ l, n[r, l] · wb[l, k])) + b₁[0, k]) 0 · w₂[k, j]) + b₂[0, j],
  the biases given as one-row matrices. Two programs compute it: a vector unit's body on a block of rows (two matrix
  products into zero accumulators for the two halves, added, then the bias row broadcast down the block, a maximum
  with zero, a third matrix product and the second bias row; format changes are the identity on the extended reals)
  and the host's line on the joined matrix (two dot_generals, the bias rows broadcast, a maximum with a zero splat).
  The two agree because a sum over the joined width splits into the sums over its two halves; addition on the
  extended reals is a commutative monoid, so nothing about finiteness is needed. Both are read here at an index,
  generic in the number of rows and the widths.
-/
import Idealize.ShloMosaic.Lib.ValueIdx
import Idealize.ShloMosaic.Lib.Pipeline.Value
import Idealize.ShloMosaic.PureOps.Ideal.Laws
import proofs.«163699_j52776558133695_2_alg».proof.Proof.LibReadAt
import proofs.«163699_j52776558133695_2_alg».proof.Proof.LibHostMatmul
import proofs.«163699_j52776558133695_2_alg».proof.Proof.LibRowMlp

noncomputable section

open scoped BigOperators

namespace Cert.RowUpdate

open Idealize.ShloMosaic Idealize.ShloMosaic.ValueIdx

/-- Entry (r, j) of the update perceptron's result. -/
def updAt {N h D o : ℕ} (s n : (⟨2, ![N, h]⟩ : Shape).Idx → EReal) (wa wb : (⟨2, ![h, D]⟩ : Shape).Idx → EReal)
    (b1 : (⟨2, ![1, D]⟩ : Shape).Idx → EReal) (w2 : (⟨2, ![D, o]⟩ : Shape).Idx → EReal)
    (b2 : (⟨2, ![1, o]⟩ : Shape).Idx → EReal) (r : Fin N) (j : Fin o) : EReal :=
  (∑ k : Fin D, max (((∑ l : Fin h, s (ix2 r l) * wa (ix2 l k)) + (∑ l : Fin h, n (ix2 r l) * wb (ix2 l k)))
      + b1 (ix2 (0 : Fin 1) k)) 0 * w2 (ix2 k j))
    + b2 (ix2 (0 : Fin 1) j)

/-- The update perceptron's result as one array. -/
def updRows {N h D o : ℕ} (s n : (⟨2, ![N, h]⟩ : Shape).Idx → EReal) (wa wb : (⟨2, ![h, D]⟩ : Shape).Idx → EReal)
    (b1 : (⟨2, ![1, D]⟩ : Shape).Idx → EReal) (w2 : (⟨2, ![D, o]⟩ : Shape).Idx → EReal)
    (b2 : (⟨2, ![1, o]⟩ : Shape).Idx → EReal) : (⟨2, ![N, o]⟩ : Shape).Idx → EReal :=
  fun i => updAt s n wa wb b1 w2 b2 (i 0) (i 1)

theorem updRows_apply {N h D o : ℕ} (s n : (⟨2, ![N, h]⟩ : Shape).Idx → EReal)
    (wa wb : (⟨2, ![h, D]⟩ : Shape).Idx → EReal) (b1 : (⟨2, ![1, D]⟩ : Shape).Idx → EReal)
    (w2 : (⟨2, ![D, o]⟩ : Shape).Idx → EReal) (b2 : (⟨2, ![1, o]⟩ : Shape).Idx → EReal) (r : Fin N) (j : Fin o) :
    updRows s n wa wb b1 w2 b2 (ix2 r j) = updAt s n wa wb b1 w2 b2 r j := rfl

/-! ## The vector unit's body on a block of rows -/

/-- The body's stored value at (p, q) of its block: the update perceptron's entry of the block's rows. -/
theorem updBlock_apply {R h D o : ℕ} (v0 : FVec Ideal ⟨2, ![R, h]⟩ .f32) (v3 : FVec Ideal ⟨2, ![R, h]⟩ .bf16)
    (v5 v8 : FVec Ideal ⟨2, ![h, D]⟩ .f32) (v14 : FVec Ideal ⟨2, ![1, D]⟩ .f32)
    (v21 : FVec Ideal ⟨2, ![D, o]⟩ .f32) (v24 : FVec Ideal ⟨2, ![1, o]⟩ .f32)
    (hs : (⟨2, ![R, h]⟩ : Shape).ShapeCasts ⟨2, ![R, h]⟩) (hw : (⟨2, ![h, D]⟩ : Shape).ShapeCasts ⟨2, ![h, D]⟩)
    (hc1 : (⟨2, ![1, D]⟩ : Shape).ShapeCasts ⟨2, ![1, D]⟩) (hc2 : (⟨2, ![1, o]⟩ : Shape).ShapeCasts ⟨2, ![1, o]⟩)
    (hbr1 : (⟨2, ![1, D]⟩ : Shape).Broadcasts ⟨2, ![R, D]⟩) (hbr2 : (⟨2, ![1, o]⟩ : Shape).Broadcasts ⟨2, ![R, o]⟩)
    (h16 : FTy.bf16.bits < FTy.f32.bits) (p : Fin R) (q : Fin o) :
    (addf (matmul (DotDims.plain R D o) none
        (truncf .bf16 (maximumf (addf (addf
              (matmul (DotDims.plain R h D) none (truncf .bf16 (shapeCast ⟨2, ![R, h]⟩ v0 hs) h16)
                (truncf .bf16 (shapeCast ⟨2, ![h, D]⟩ v5 hw) h16) (constant ⟨2, ![R, D]⟩ .f32 0x00000000#32))
              (matmul (DotDims.plain R h D) none (shapeCast ⟨2, ![R, h]⟩ v3 hs)
                (truncf .bf16 (shapeCast ⟨2, ![h, D]⟩ v8 hw) h16) (constant ⟨2, ![R, D]⟩ .f32 0x00000000#32)))
            (broadcastTo ⟨2, ![R, D]⟩ (shapeCast ⟨2, ![1, D]⟩ v14 hc1) hbr1))
          (broadcast ⟨2, ![R, D]⟩ (Scalar.ofBits .f32 0x00000000#32))) h16)
        (truncf .bf16 v21 h16) (constant ⟨2, ![R, o]⟩ .f32 0x00000000#32))
      (broadcastTo ⟨2, ![R, o]⟩ (shapeCast ⟨2, ![1, o]⟩ v24 hc2) hbr2) : FVec Ideal ⟨2, ![R, o]⟩ .f32) (ix2 p q)
      = updAt v0 v3 v5 v8 v14 v21 v24 p q := by
  rw [shapeCast_self, shapeCast_self, shapeCast_self, shapeCast_self, shapeCast_self, shapeCast_self]
  show matmul (DotDims.plain R D o) none _ _ _ (ix2 p q) + broadcastTo ⟨2, ![R, o]⟩ v24 hbr2 (ix2 p q) = _
  rw [Cert.ReadAt.matmul_plain_zero_apply, Cert.RowMlp.rowBroadcastTo_apply]
  unfold updAt
  refine congrArg (· + v24 (ix2 (0 : Fin 1) q)) (Finset.sum_congr rfl fun k _ => ?_)
  refine congrArg (· * v21 (ix2 k q)) ?_
  show max ((matmul (DotDims.plain R h D) none _ _ _ (ix2 p k) + matmul (DotDims.plain R h D) none _ _ _ (ix2 p k))
        + broadcastTo ⟨2, ![R, D]⟩ v14 hbr1 (ix2 p k))
      (Ideal.ofBits .f32 0x00000000#32) = _
  rw [Cert.ReadAt.matmul_plain_zero_apply, Cert.ReadAt.matmul_plain_zero_apply, Cert.RowMlp.rowBroadcastTo_apply,
    Ideal.ofBits_zero_f32]
  rfl

/-! ## The host's line on the joined matrix -/

/-- The host's two dot_generals on the joined matrix with broadcast bias rows and a maximum with the zero splat:
    the update perceptron of the two halves. The joined matrix's row is the first matrix's row followed by the
    second's, and the weight matrix's rows are the first half's followed by the second's; the contraction over
    the joined width is the sum of the contractions over the halves. -/
theorem hostUpd_eq {N h K D o : ℕ} (hK : h + h = K)
    (s n : (⟨2, ![N, h]⟩ : Shape).Idx → EReal) (wa wb : (⟨2, ![h, D]⟩ : Shape).Idx → EReal)
    (x : FVec Ideal ⟨2, ![N, K]⟩ .f32) (W : FVec Ideal ⟨2, ![K, D]⟩ .f32)
    (b1 : FVec Ideal ⟨2, ![1, D]⟩ .f32) (w2 : FVec Ideal ⟨2, ![D, o]⟩ .f32) (b2 : FVec Ideal ⟨2, ![1, o]⟩ .f32)
    (hxl : ∀ (r : Fin N) (l : Fin h) (l' : Fin K), l'.val = l.val → x (ix2 r l') = s (ix2 r l))
    (hxr : ∀ (r : Fin N) (l : Fin h) (l' : Fin K), l'.val = h + l.val → x (ix2 r l') = n (ix2 r l))
    (hwa : ∀ (l : Fin h) (l' : Fin K) (k : Fin D), l'.val = l.val → W (ix2 l' k) = wa (ix2 l k))
    (hwb : ∀ (l : Fin h) (l' : Fin K) (k : Fin D), l'.val = h + l.val → W (ix2 l' k) = wb (ix2 l k))
    (hb1 : (⟨2, ![1, D]⟩ : Shape).BroadcastsInDim ⟨2, ![N, D]⟩ ![0, 1])
    (hb2 : (⟨2, ![1, o]⟩ : Shape).BroadcastsInDim ⟨2, ![N, o]⟩ ![0, 1])
    (h0 : (⟨0, ![]⟩ : Shape).BroadcastsInDim ⟨2, ![N, D]⟩ ![]) :
    addf (Host.dotGeneral (DotDims.plain N D o) none
        (maximumf (addf (Host.dotGeneral (DotDims.plain N K D) none x W) (broadcastInDim ⟨2, ![N, D]⟩ ![0, 1] hb1 b1))
          (broadcastInDim ⟨2, ![N, D]⟩ ![] h0 (constant (F := Ideal) ⟨0, ![]⟩ .f32 0x00000000#32))) w2)
      (broadcastInDim ⟨2, ![N, o]⟩ ![0, 1] hb2 b2) = updRows s n wa wb b1 w2 b2 := by
  funext i
  obtain ⟨r, j, rfl⟩ : ∃ (r : Fin N) (j : Fin o), i = ix2 r j := ⟨i 0, i 1, eq_ix2 i⟩
  rw [updRows_apply]
  show Host.dotGeneral (DotDims.plain N D o) none _ w2 (ix2 r j)
      + broadcastInDim ⟨2, ![N, o]⟩ ![0, 1] hb2 b2 (ix2 r j) = _
  rw [Cert.HostMatmul.dotGeneral_plain_apply, Cert.RowMlp.rowBroadcastInDim_apply]
  unfold updAt
  refine congrArg (· + b2 (ix2 (0 : Fin 1) j)) (Finset.sum_congr rfl fun k _ => ?_)
  refine congrArg (· * w2 (ix2 k j)) ?_
  show max (Host.dotGeneral (DotDims.plain N K D) none x W (ix2 r k)
        + broadcastInDim ⟨2, ![N, D]⟩ ![0, 1] hb1 b1 (ix2 r k))
      (Ideal.ofBits .f32 0x00000000#32) = _
  rw [Cert.HostMatmul.dotGeneral_plain_apply, Cert.RowMlp.rowBroadcastInDim_apply, Ideal.ofBits_zero_f32]
  refine congrArg (fun z : EReal => max (z + b1 (ix2 (0 : Fin 1) k)) 0) ?_
  subst hK
  refine (Fin.sum_univ_add (fun c : Fin (h + h) => x (ix2 r c) * W (ix2 c k))).trans ?_
  refine congrArg₂ (· + ·) (Finset.sum_congr rfl fun l _ => ?_) (Finset.sum_congr rfl fun l _ => ?_)
  · show x (ix2 r (Fin.castAdd h l)) * W (ix2 (Fin.castAdd h l) k) = _
    rw [hxl r l (Fin.castAdd h l) (Fin.coe_castAdd h l), hwa l (Fin.castAdd h l) k (Fin.coe_castAdd h l)]
  · show x (ix2 r (Fin.natAdd h l)) * W (ix2 (Fin.natAdd h l) k) = _
    rw [hxr r l (Fin.natAdd h l) (Fin.coe_natAdd h l), hwb l (Fin.natAdd h l) k (Fin.coe_natAdd h l)]

end Cert.RowUpdate

end
-- ==== Proof.Region3.lean ====
/-
  Region 3, the update perceptron: a grid of 25 points, each taking a block of 8000 rows of the summed messages
  and of the node states, the two halves of the first weight matrix, the two bias rows and the second weight matrix
  whole, and writing the block of 8000 rows of the output. The body's stored value, read at an entry, is the update
  perceptron's entry of the rows it was given; the 25 blocks tile the 200000 rows, so after the region the output
  array is the update perceptron of the arrays the region found, every row.
-/
import proofs.«163699_j52776558133695_2_alg».proof.Proof.Gen.KernelIdeal.Frame
import proofs.«163699_j52776558133695_2_alg».proof.Proof.LibRowUpdate

set_option maxRecDepth 16384

noncomputable section

namespace Cert.KernelIdeal.Region3

open Cert.KernelIdeal Cert.KernelIdeal.Gen
open Idealize.ShloMosaic Idealize.ShloMosaic.TcCoe Idealize.SL.Sem Idealize.ShloMosaic.ValueIdx
open Idealize.ShloMosaic.Pipeline (Dat)
open Cert.RowUpdate

/-- The first layer's two products contract the 64 columns of an 8000-row block against the 64 rows of a half of
    the weight matrix, -/
theorem dot1_plain : dot_S8000x64_S64x128_S8000x128_1_0_0_1_n_n = DotDims.plain 8000 64 128 := rfl

/-- and the second layer's product the 128 hidden columns against the 128 rows of the second weight matrix. -/
theorem dot2_plain : dot_S8000x128_S128x64_S8000x64_1_0_0_1_n_n = DotDims.plain 8000 128 64 := rfl

/-- The body's stored value at (p, q) of its block is the update perceptron's entry of the block's rows. -/
theorem pay_apply (v0 : Vec Ideal S8000x64 .f32) (v3 : Vec Ideal S8000x64 .bf16) (v5 v8 : Vec Ideal S64x128 .f32)
    (v14 : Vec Ideal S1x128 .f32) (v21 : Vec Ideal S128x64 .f32) (v24 : Vec Ideal S1x64 .f32)
    (p : Fin 8000) (q : Fin 64) :
    k3_pay1 (F := Ideal) v0 v3 v5 v8 v14 v21 v24 (ix2 p q) = updAt v0 v3 v5 v8 v14 v21 v24 p q := by
  unfold k3_pay1
  rw [dot1_plain, dot2_plain]
  exact updBlock_apply v0 v3 v5 v8 v14 v21 v24 _ _ _ _ _ _ _ p q

variable (V : (c : Dev nD) → (b : Ref sig .tc) → Buf (Elt Ideal) ((c : Thread nD τ).loc b))

theorem hz : (![0, 0] : Fin 2 → Nat) = fun _ => 0 := funext fun a => by fin_cases a <;> rfl

/-- The block indices of the eight windows at each of the 25 grid points: the two row-block inputs and the output
    move with the point along the rows; the weights and bias rows stay whole. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = t.val ∧ win3_7.index t (1 : Fin 2) = 0 :=
  (by decide +kernel : ∀ t : Fin grid3.N, _)

/-- The update perceptron of the arrays the region finds, every row. -/
def outArr (c : Dev nD) : S200000x64.Idx → EReal :=
  updRows (N := 200000) (h := 64) (D := 128) (o := 64) (V c main_v59) (V c main_v0) (V c main_v60) (V c main_v61)
    (V c main_v62) (V c main_arg18) (V c main_v63)

/-- The body's value on the block of rows `k*8000 … k*8000+7999`, at an entry of the block, is the update
    perceptron's entry of the whole arrays at that row. -/
theorem block_apply (x0 : Vec Ideal S8000x64 .f32) (x1 : Vec Ideal S8000x64 .bf16) (x2 x3 : Vec Ideal S64x128 .f32)
    (x4 : Vec Ideal S1x128 .f32) (x5 : Vec Ideal S128x64 .f32) (x6 : Vec Ideal S1x64 .f32)
    (Sm Ns : S200000x64.Idx → EReal) (Wa Wb : S64x128.Idx → EReal) (B1 : S1x128.Idx → EReal)
    (W2 : S128x64.Idx → EReal) (B2 : S1x64.Idx → EReal) (k : ℕ) (hk : k < 25)
    (hx0 : ∀ (p : Fin 8000) (l : Fin 64), x0 (ix2 p l) = Sm (ix2 (⟨k * 8000 + p.val, by omega⟩ : Fin 200000) l))
    (hx1 : ∀ (p : Fin 8000) (l : Fin 64), x1 (ix2 p l) = Ns (ix2 (⟨k * 8000 + p.val, by omega⟩ : Fin 200000) l))
    (h2 : x2 = Wa) (h3 : x3 = Wb) (h4 : x4 = B1) (h5 : x5 = W2) (h6 : x6 = B2)
    (y : S8000x64.Idx) (i : S200000x64.Idx) (hi0 : (i 0).val = k * 8000 + (y 0).val) (hi1 : (i 1).val = (y 1).val) :
    k3_pay1 (F := Ideal) x0 x1 x2 x3 x4 x5 x6 y = updRows Sm Ns Wa Wb B1 W2 B2 i := by
  subst h2 h3 h4 h5 h6
  obtain ⟨p, q, rfl⟩ : ∃ (p : Fin 8000) (q : Fin 64), y = ix2 p q := ⟨y 0, y 1, eq_ix2 y⟩
  have hb : k * 8000 + p.val < 200000 := by have := p.isLt; omega
  obtain ⟨r, j, rfl⟩ : ∃ (r : Fin 200000) (j : Fin 64), i = ix2 r j := ⟨i 0, i 1, eq_ix2 i⟩
  have hr : r = ⟨k * 8000 + p.val, hb⟩ := Fin.ext hi0
  have hj : j = q := Fin.ext hi1
  subst hr hj
  rw [pay_apply, updRows_apply]
  unfold updAt
  simp only [hx0, hx1]

set_option maxHeartbeats 1000000 in
theorem flushed_eq (c : Dev nD) (t : Fin cfg3.N) :
    (dat3 V c).flushed 7 t = ((cfg3.win 7).blk t).view.read (Elt Ideal) (outArr V c) := by
  show (cfg3.win 7).cut (grid3.coords t) ((dat3 V c).after 7 t) = _
  rw [after3_7]
  unfold out3_7
  rw [View.canon_unit_zero hz]
  simp only [View.ld_unit_zero (S := S8000x64) hz, View.ld_unit_zero (S := S64x128) hz,
    View.ld_unit_zero (S := S1x128) hz, View.ld_unit_zero (S := S128x64) hz, View.ld_unit_zero (S := S1x64) hz]
  obtain ⟨e0, e1, e2, e3, e4, e5, e6, e7, e8, e9, e10, e11, e12, e13, e14, e15⟩ := idx_facts t
  have ht : t.val < 25 := lt_of_lt_of_eq t.isLt N_3
  have h2 : (iblk3 V c 2 t : S64x128.Idx → EReal) = (V c main_v60 : S64x128.Idx → EReal) := by
    funext y
    show V c main_v60 (((cfg3.win 2).blk t).view.emb y) = V c main_v60 y
    refine congrArg (V c main_v60) (funext fun a => Fin.ext ?_)
    match a with
    | ⟨0, _⟩ => show win3_2.index t (0 : Fin 2) * 64 + 1 * (y 0).val = (y 0).val; omega
    | ⟨1, _⟩ => show win3_2.index t (1 : Fin 2) * 128 + 1 * (y 1).val = (y 1).val; omega
  have h3 : (iblk3 V c 3 t : S64x128.Idx → EReal) = (V c main_v61 : S64x128.Idx → EReal) := by
    funext y
    show V c main_v61 (((cfg3.win 3).blk t).view.emb y) = V c main_v61 y
    refine congrArg (V c main_v61) (funext fun a => Fin.ext ?_)
    match a with
    | ⟨0, _⟩ => show win3_3.index t (0 : Fin 2) * 64 + 1 * (y 0).val = (y 0).val; omega
    | ⟨1, _⟩ => show win3_3.index t (1 : Fin 2) * 128 + 1 * (y 1).val = (y 1).val; omega
  have h4 : (iblk3 V c 4 t : S1x128.Idx → EReal) = (V c main_v62 : S1x128.Idx → EReal) := by
    funext y
    show V c main_v62 (((cfg3.win 4).blk t).view.emb y) = V c main_v62 y
    refine congrArg (V c main_v62) (funext fun a => Fin.ext ?_)
    match a with
    | ⟨0, _⟩ => show win3_4.index t (0 : Fin 2) * 1 + 1 * (y 0).val = (y 0).val; omega
    | ⟨1, _⟩ => show win3_4.index t (1 : Fin 2) * 128 + 1 * (y 1).val = (y 1).val; omega
  have h5 : (iblk3 V c 5 t : S128x64.Idx → EReal) = (V c main_arg18 : S128x64.Idx → EReal) := by
    funext y
    show V c main_arg18 (((cfg3.win 5).blk t).view.emb y) = V c main_arg18 y
    refine congrArg (V c main_arg18) (funext fun a => Fin.ext ?_)
    match a with
    | ⟨0, _⟩ => show win3_5.index t (0 : Fin 2) * 128 + 1 * (y 0).val = (y 0).val; omega
    | ⟨1, _⟩ => show win3_5.index t (1 : Fin 2) * 64 + 1 * (y 1).val = (y 1).val; omega
  have h6 : (iblk3 V c 6 t : S1x64.Idx → EReal) = (V c main_v63 : S1x64.Idx → EReal) := by
    funext y
    show V c main_v63 (((cfg3.win 6).blk t).view.emb y) = V c main_v63 y
    refine congrArg (V c main_v63) (funext fun a => Fin.ext ?_)
    match a with
    | ⟨0, _⟩ => show win3_6.index t (0 : Fin 2) * 1 + 1 * (y 0).val = (y 0).val; omega
    | ⟨1, _⟩ => show win3_6.index t (1 : Fin 2) * 64 + 1 * (y 1).val = (y 1).val; omega
  have hx0 : ∀ (p : Fin 8000) (l : Fin 64), (iblk3 V c 0 t : S8000x64.Idx → EReal) (ix2 p l)
      = (V c main_v59 : S200000x64.Idx → EReal) (ix2 (⟨t.val * 8000 + p.val, by omega⟩ : Fin 200000) l) := by
    intro p l
    show V c main_v59 (((cfg3.win 0).blk t).view.emb (ix2 p l)) = _
    refine congrArg (V c main_v59) (funext fun a => Fin.ext ?_)
    match a with
    | ⟨0, _⟩ => show win3_0.index t (0 : Fin 2) * 8000 + 1 * p.val = t.val * 8000 + p.val; omega
    | ⟨1, _⟩ => show win3_0.index t (1 : Fin 2) * 64 + 1 * l.val = l.val; omega
  have hx1 : ∀ (p : Fin 8000) (l : Fin 64), (iblk3 V c 1 t : S8000x64.Idx → EReal) (ix2 p l)
      = (V c main_v0 : S200000x64.Idx → EReal) (ix2 (⟨t.val * 8000 + p.val, by omega⟩ : Fin 200000) l) := by
    intro p l
    show V c main_v0 (((cfg3.win 1).blk t).view.emb (ix2 p l)) = _
    refine congrArg (V c main_v0) (funext fun a => Fin.ext ?_)
    match a with
    | ⟨0, _⟩ => show win3_1.index t (0 : Fin 2) * 8000 + 1 * p.val = t.val * 8000 + p.val; omega
    | ⟨1, _⟩ => show win3_1.index t (1 : Fin 2) * 64 + 1 * l.val = l.val; omega
  funext j
  exact block_apply (iblk3 V c 0 t) (iblk3 V c 1 t) (iblk3 V c 2 t) (iblk3 V c 3 t) (iblk3 V c 4 t) (iblk3 V c 5 t)
    (iblk3 V c 6 t) (V c main_v59) (V c main_v0) (V c main_v60) (V c main_v61) (V c main_v62) (V c main_arg18)
    (V c main_v63) t.val ht hx0 hx1 h2 h3 h4 h5 h6 j
    (((cfg3.win 7).blk t).view.emb j)
    (show win3_7.index t (0 : Fin 2) * 8000 + 1 * (j 0).val = t.val * 8000 + (j 0).val by omega)
    (show win3_7.index t (1 : Fin 2) * 64 + 1 * (j 1).val = (j 1).val by omega)

/-- An index of the array lies in point `t`'s block iff each coordinate lies in the block's range on its axis. -/
theorem mem_blk (t : Fin cfg3.N) (i : S200000x64.Idx) :
    i ∈ ((cfg3.win 7).blk t).view.set ↔ ∀ a : Fin 2, win3_7.index t a * S8000x64.size a ≤ (i a).val
      ∧ (i a).val < win3_7.index t a * S8000x64.size a + S8000x64.size a := by
  show i ∈ ((View.whole main_v64).slice (win3_7.rect t)).set ↔ _
  rw [View.set_slice_whole, Rect.mem_set_unit]
  exact Iff.rfl

/-- The region's output array after the region: the update perceptron of the arrays the region found, every row.
    Row `r` is written by the grid point `r / 8000`. -/
theorem final (c : Dev nD) : (dat3 V c).arrAt 7 cfg3.N = outArr V c :=
  (dat3 V c).arrAt_eq_of_cover 7 (outArr V c) (fun t _ => flushed_eq V c t) fun i => by
    have hi0 : (i 0).val < 200000 := (i 0).isLt
    have hi1 : (i 1).val < 64 := (i 1).isLt
    have hN : cfg3.N = 25 := N_3
    let t : Fin cfg3.N := ⟨(i 0).val / 8000, by rw [hN]; omega⟩
    obtain ⟨e0, e1, e2, e3, e4, e5, e6, e7, e8, e9, e10, e11, e12, e13, e14, e15⟩ := idx_facts t
    have e14' : win3_7.index t (0 : Fin 2) = (i 0).val / 8000 := e14
    refine ⟨t, flush3_7 t, ?_⟩
    rw [mem_blk]
    intro a
    match a with
    | ⟨0, _⟩ => show win3_7.index t (0 : Fin 2) * 8000 ≤ (i 0).val ∧ (i 0).val < win3_7.index t (0 : Fin 2) * 8000 + 8000; omega
    | ⟨1, _⟩ => show win3_7.index t (1 : Fin 2) * 64 ≤ (i 1).val ∧ (i 1).val < win3_7.index t (1 : Fin 2) * 64 + 64; omega

end Cert.KernelIdeal.Region3

end
-- ==== Proof.RefUpdate.lean ====
/-
  The reference's last stage as the update perceptron. The reference joins each node's summed messages with its
  state along the columns, multiplies by the whole first weight matrix, adds the bias (broadcast first to a one-row
  matrix and then down the rows), takes a maximum with a zero splat, multiplies by the second weight matrix and adds
  the second bias. Read at an index that is the update perceptron of the summed messages and the states with the
  first weight matrix cut into its upper and lower halves: a column of the joined matrix below the first width is
  a column of the summed messages and one at or past it a column of the states, and likewise for the rows of the
  weight matrix and its two slices; the contraction over the joined width is the sum of the two contractions.
-/
import Idealize.ShloMosaic.Lib.Pipeline.Value
import proofs.«163699_j52776558133695_2_alg».proof.Proof.Gen.ReferenceIdeal.Read
import proofs.«163699_j52776558133695_2_alg».proof.Proof.LibRowUpdate

noncomputable section

namespace Cert.ReferenceIdeal.Stages3

open Cert.ReferenceIdeal Cert.ReferenceIdeal.Read Idealize.ShloMosaic Idealize.ShloMosaic.ValueIdx Cert.RowUpdate

/-- The printed contraction records are the plain `[m, k] × [k, n]` ones. -/
theorem dotJoin : dot_S200000x128_S128x128_S200000x128_1_0_0_1_n_n = DotDims.plain 200000 128 128 := rfl
theorem dotOut : dot_S200000x128_S128x64_S200000x64_1_0_0_1_n_n = DotDims.plain 200000 128 64 := rfl

variable (a0 : (⟨S200000x64, .f32⟩ : BufTy).Contents (Elt Ideal)) (a1 : (⟨S250000, .i32⟩ : BufTy).Contents (Elt Ideal)) (a2 : (⟨S500000, .i32⟩ : BufTy).Contents (Elt Ideal)) (a3 : (⟨S750000, .i32⟩ : BufTy).Contents (Elt Ideal))
  (a4 : (⟨S64x64, .f32⟩ : BufTy).Contents (Elt Ideal)) (a5 : (⟨S64, .f32⟩ : BufTy).Contents (Elt Ideal)) (a6 : (⟨S64x64, .f32⟩ : BufTy).Contents (Elt Ideal)) (a7 : (⟨S64, .f32⟩ : BufTy).Contents (Elt Ideal))
  (a8 : (⟨S128x128, .f32⟩ : BufTy).Contents (Elt Ideal)) (a9 : (⟨S128, .f32⟩ : BufTy).Contents (Elt Ideal)) (a10 : (⟨S128x128, .f32⟩ : BufTy).Contents (Elt Ideal)) (a11 : (⟨S128, .f32⟩ : BufTy).Contents (Elt Ideal))
  (a12 : (⟨S192x192, .f32⟩ : BufTy).Contents (Elt Ideal)) (a13 : (⟨S192, .f32⟩ : BufTy).Contents (Elt Ideal)) (a14 : (⟨S192x192, .f32⟩ : BufTy).Contents (Elt Ideal)) (a15 : (⟨S192, .f32⟩ : BufTy).Contents (Elt Ideal))
  (a16 : (⟨S128x128, .f32⟩ : BufTy).Contents (Elt Ideal)) (a17 : (⟨S128, .f32⟩ : BufTy).Contents (Elt Ideal)) (a18 : (⟨S128x64, .f32⟩ : BufTy).Contents (Elt Ideal)) (a19 : (⟨S64, .f32⟩ : BufTy).Contents (Elt Ideal))

/-- A column of the joined matrix below 64 is the summed messages' column. -/
theorem join_left (r : Fin 200000) (l : Fin 64) (l' : Fin 128) (hl : l'.val = l.val) :
    val_main_v74 (F := Ideal) a0 a1 a2 a3 a4 a5 a6 a7 a8 a9 a10 a11 a12 a13 a14 a15 (ix2 r l') = val_main_v73 (F := Ideal) a0 a1 a2 a3 a4 a5 a6 a7 a8 a9 a10 a11 a12 a13 a14 a15 (ix2 r l) := by
  unfold val_main_v74
  exact concatenate_pair_apply_left (t := S200000x128) (s₁ := S200000x64) (s₂ := S200000x64) (1 : Fin 2) _ _ _ (ix2 r l') rfl (ix2 r l) fun b => match b with
    | ⟨0, _⟩ => rfl
    | ⟨1, _⟩ => hl.symm

/-- A column of the joined matrix at 64 or past it is the states' column, 64 less. -/
theorem join_right (r : Fin 200000) (l : Fin 64) (l' : Fin 128) (hl : l'.val = 64 + l.val) :
    val_main_v74 (F := Ideal) a0 a1 a2 a3 a4 a5 a6 a7 a8 a9 a10 a11 a12 a13 a14 a15 (ix2 r l') = a0 (ix2 r l) := by
  unfold val_main_v74
  refine concatenate_pair_apply_right (t := S200000x128) (s₁ := S200000x64) (s₂ := S200000x64) (1 : Fin 2) _ _ _ (ix2 r l') rfl rfl (ix2 r l) (fun b hb => ?_) ?_
  · match b with
    | ⟨0, _⟩ => rfl
    | ⟨1, _⟩ => exact absurd rfl hb
  · show l.val + 64 = l'.val
    omega

/-- The reference's output: the update perceptron of the summed messages and the states, the first weight matrix
    cut into its upper and lower halves. -/
theorem upd_eq (hs0 : S128x128.Slices ![0, 0] ⟨2, ![64, 128]⟩) (hs1 : S128x128.Slices ![64, 0] ⟨2, ![64, 128]⟩) :
    val_main_v83 (F := Ideal) a0 a1 a2 a3 a4 a5 a6 a7 a8 a9 a10 a11 a12 a13 a14 a15 a16 a17 a18 a19
      = updRows (val_main_v73 (F := Ideal) a0 a1 a2 a3 a4 a5 a6 a7 a8 a9 a10 a11 a12 a13 a14 a15) a0
          (extractStridedSlice (⟨2, ![64, 128]⟩ : Shape) ![0, 0] a16 hs0) (extractStridedSlice (⟨2, ![64, 128]⟩ : Shape) ![64, 0] a16 hs1)
          (val_main_v76 (F := Ideal) a17) a18 (val_main_v81 (F := Ideal) a19) := by
  unfold val_main_v83 val_main_v82 val_main_v80 val_main_v79 val_main_call3_v0 val_main_call3_cst val_main_v78 val_main_v77 val_main_v75
  rw [dotJoin, dotOut]
  refine hostUpd_eq (N := 200000) (h := 64) (K := 128) (D := 128) (o := 64) rfl _ _ _ _
    (val_main_v74 (F := Ideal) a0 a1 a2 a3 a4 a5 a6 a7 a8 a9 a10 a11 a12 a13 a14 a15) a16 _ _ _ ?_ ?_ ?_ ?_ _ _ _
  · exact fun r l l' hl => join_left a0 a1 a2 a3 a4 a5 a6 a7 a8 a9 a10 a11 a12 a13 a14 a15 r l l' hl
  · exact fun r l l' hl => join_right a0 a1 a2 a3 a4 a5 a6 a7 a8 a9 a10 a11 a12 a13 a14 a15 r l l' hl
  · intro l l' k hl
    refine (extractStridedSlice_apply ![0, 0] a16 hs0 (ix2 l k) (ix2 l' k) fun a => ?_).symm
    match a with
    | ⟨0, _⟩ => show l'.val = 0 + l.val; omega
    | ⟨1, _⟩ => show k.val = 0 + k.val; omega
  · intro l l' k hl
    refine (extractStridedSlice_apply ![64, 0] a16 hs1 (ix2 l k) (ix2 l' k) fun a => ?_).symm
    match a with
    | ⟨0, _⟩ => show l'.val = 64 + l.val; omega
    | ⟨1, _⟩ => show k.val = 0 + k.val; omega

end Cert.ReferenceIdeal.Stages3

end
-- ==== Proof.LibUnitAxisCast.lean ====
/-
  A reshape that only adds a unit axis is a broadcast along that axis.

  Reshaping a vector of length `n` to a column `[n, 1]` or to a row `[1, n]` keeps the row-major position of every
  entry, and the new axis has the one coordinate `0`; a `broadcast_in_dim` that sends the vector's axis to the long
  axis of the column or row reads the same entry.  So the two operations are one function, for every length and
  every element type.
-/
import Idealize.ShloMosaic.Lib.Pipeline.Value
import Idealize.ShloMosaic.Lib.ValueIdx

namespace Cert.Lib.UnitAxisCast

open Idealize.ShloMosaic Idealize.ShloMosaic.ValueIdx

/-- A vector of length `n` reshaped to the column `[n, 1]` is the vector broadcast along a new trailing unit axis:
    entry `(r, 0)` of either is entry `r` of the vector. -/
theorem shapeCast_column {α : Type} (n : Nat) (v : (⟨1, ![n]⟩ : Shape).Idx → α)
    (h : (⟨1, ![n]⟩ : Shape).ShapeCasts ⟨2, ![n, 1]⟩)
    (h' : (⟨1, ![n]⟩ : Shape).BroadcastsInDim ⟨2, ![n, 1]⟩ ![0]) :
    shapeCast ⟨2, ![n, 1]⟩ v h = broadcastInDim ⟨2, ![n, 1]⟩ ![0] h' v := by
  funext i
  have hi0 : (i 0).val < n := (i 0).isLt
  have hi1 : (i 1).val < 1 := (i 1).isLt
  rw [shapeCast_apply v h i (ix1 (⟨(i 0).val, hi0⟩ : Fin n)) (by
        rw [Shape.rowMajor_val_one, Shape.rowMajor_val_two]
        show (i 0).val = (i 0).val * 1 + (i 1).val
        omega),
      broadcastInDim_apply ![0] h' v i (ix1 (⟨(i 0).val, hi0⟩ : Fin n)) (fun a => by
        match a with
        | ⟨0, _⟩ =>
          show (i 0).val = if n = 1 then 0 else (i 0).val
          split
          · omega
          · rfl)]

/-- A vector of length `n` reshaped to the row `[1, n]` is the vector broadcast along a new leading unit axis:
    entry `(0, q)` of either is entry `q` of the vector. -/
theorem shapeCast_row {α : Type} (n : Nat) (v : (⟨1, ![n]⟩ : Shape).Idx → α)
    (h : (⟨1, ![n]⟩ : Shape).ShapeCasts ⟨2, ![1, n]⟩)
    (h' : (⟨1, ![n]⟩ : Shape).BroadcastsInDim ⟨2, ![1, n]⟩ ![1]) :
    shapeCast ⟨2, ![1, n]⟩ v h = broadcastInDim ⟨2, ![1, n]⟩ ![1] h' v := by
  funext i
  have hi0 : (i 0).val < 1 := (i 0).isLt
  have hi1 : (i 1).val < n := (i 1).isLt
  have h0 : (i 0).val = 0 := by omega
  rw [shapeCast_apply v h i (ix1 (⟨(i 1).val, hi1⟩ : Fin n)) (by
        rw [Shape.rowMajor_val_one, Shape.rowMajor_val_two]
        show (i 1).val = (i 0).val * n + (i 1).val
        rw [h0]; omega),
      broadcastInDim_apply ![1] h' v i (ix1 (⟨(i 1).val, hi1⟩ : Fin n)) (fun a => by
        match a with
        | ⟨0, _⟩ =>
          show (i 1).val = if n = 1 then 0 else (i 1).val
          split
          · omega
          · rfl)]

end Cert.Lib.UnitAxisCast
-- ==== Proof.Region2.lean ====
/-
  Relation 2's message perceptron as one array. The region's grid has 125 points; point t stages rows
  2000·t … 2000·t+1999 of the gathered rows (width 192), the two weight matrices and the two one-row biases whole, and
  writes back the same rows of the message array. At the extended reals the body's stored value at a row is the
  perceptron's entry of that row: relu (x · w₁ + b₁) · w₂ + b₂, the format changes being the identity. The blocks of the
  125 points tile the 250000 rows, so after the region the message array holds the perceptron of the arrays the
  region found, every row.
-/
import proofs.«163699_j52776558133695_2_alg».proof.Proof.Gen.KernelIdeal.Frame
import proofs.«163699_j52776558133695_2_alg».proof.Proof.LibRowMlp

set_option maxRecDepth 16384

noncomputable section

namespace Cert.KernelIdeal.Region2

open Cert.KernelIdeal Cert.KernelIdeal.Gen
open Idealize.ShloMosaic Idealize.ShloMosaic.TcCoe Idealize.SL.Sem Idealize.ShloMosaic.ValueIdx
open Idealize.ShloMosaic.Pipeline (Dat)
open Cert.RowMlp

/-- The printed contraction record is the plain `[m, k] × [k, n]` one. -/
theorem dot_plain : dot_S2000x192_S192x192_S2000x192_1_0_0_1_n_n = DotDims.plain 2000 192 192 := rfl

/-- The body's stored value at an entry of its block: the perceptron's entry of the block's rows. -/
theorem pay_apply (v0 : Vec Ideal S2000x192 .bf16) (v2 : Vec Ideal S192x192 .f32) (v5 : Vec Ideal S1x192 .f32)
    (v12 : Vec Ideal S192x192 .f32) (v15 : Vec Ideal S1x192 .f32) (p : Fin 2000) (q : Fin 192) :
    k2_pay1 (F := Ideal) v0 v2 v5 v12 v15 (ix2 p q) = mlpAt v0 v2 v5 v12 v15 p q := by
  unfold k2_pay1
  rw [dot_plain]
  exact mlpBlock_apply v0 v2 v5 v12 v15 _ _ _ _ p q

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the gathered rows and the output move with the point, one block of 2000 rows
    each; the weights and biases are staged whole. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The message array the region leaves: the perceptron of the gathered rows, the weights and the bias rows as the
    region finds them. -/
def outArr (c : Dev nD) : S250000x192.Idx → EReal :=
  mlpRows (V c main_v47) (V c main_arg12) (V c main_v48) (V c main_arg14) (V c main_v49)

/-- The body's value on the block of rows `k*2000 … k*2000+1999`, at an entry of the block, is the perceptron's entry of
    the whole array at that row. -/
theorem block_apply (x0 : Vec Ideal S2000x192 .bf16) (x1 : Vec Ideal S192x192 .f32) (x2 : Vec Ideal S1x192 .f32)
    (x3 : Vec Ideal S192x192 .f32) (x4 : Vec Ideal S1x192 .f32)
    (X : S250000x192.Idx → EReal) (W1 : S192x192.Idx → EReal) (B1 : S1x192.Idx → EReal) (W2 : S192x192.Idx → EReal)
    (B2 : S1x192.Idx → EReal) (k : ℕ) (hk : k < 125)
    (hx0 : ∀ (p : Fin 2000) (l : Fin 192), x0 (ix2 p l) = X (ix2 (⟨k * 2000 + p.val, by omega⟩ : Fin 250000) l))
    (h1 : x1 = W1) (h2 : x2 = B1) (h3 : x3 = W2) (h4 : x4 = B2)
    (y : S2000x192.Idx) (i : S250000x192.Idx) (hi0 : (i 0).val = k * 2000 + (y 0).val) (hi1 : (i 1).val = (y 1).val) :
    k2_pay1 (F := Ideal) x0 x1 x2 x3 x4 y = mlpRows X W1 B1 W2 B2 i := by
  subst h1 h2 h3 h4
  obtain ⟨p, q, rfl⟩ : ∃ (p : Fin 2000) (q : Fin 192), y = ix2 p q := ⟨y 0, y 1, eq_ix2 y⟩
  have hb : k * 2000 + p.val < 250000 := by have := p.isLt; omega
  obtain ⟨r, j, rfl⟩ : ∃ (r : Fin 250000) (j : Fin 192), i = ix2 r j := ⟨i 0, i 1, eq_ix2 i⟩
  have hr : r = ⟨k * 2000 + p.val, hb⟩ := Fin.ext hi0
  have hj : j = q := Fin.ext hi1
  subst hr hj
  rw [pay_apply, mlpRows_apply]
  unfold mlpAt
  simp only [hx0]

/-- What point `t` writes back is block `t` of the perceptron of the arrays the region found. -/
theorem flushed_eq (c : Dev nD) (t : Fin cfg2.N) :
    (dat2 V c).flushed 5 t = ((cfg2.win 5).blk t).view.read (Elt Ideal) (outArr V c) := by
  show (cfg2.win 5).cut (grid2.coords t) ((dat2 V c).after 5 t) = _
  rw [after2_5]
  unfold out2_5
  rw [View.canon_unit_zero hz]
  simp only [View.ld_unit_zero (S := S2000x192) hz, View.ld_unit_zero (S := S192x192) hz, View.ld_unit_zero (S := S1x192) hz]
  obtain ⟨e0, e1, e2, e3, e4, e5, e6, e7, e8, e9, e10, e11⟩ := idx_facts t
  have ht : t.val < 125 := lt_of_lt_of_eq t.isLt N_2
  have h1 : (iblk2 V c 1 t : S192x192.Idx → EReal) = (V c main_arg12 : S192x192.Idx → EReal) := by
    funext y
    show V c main_arg12 (((cfg2.win 1).blk t).view.emb y) = V c main_arg12 y
    refine congrArg (V c main_arg12) (funext fun a => Fin.ext ?_)
    match a with
    | ⟨0, _⟩ => show win2_1.index t (0 : Fin 2) * 192 + 1 * (y 0).val = (y 0).val; omega
    | ⟨1, _⟩ => show win2_1.index t (1 : Fin 2) * 192 + 1 * (y 1).val = (y 1).val; omega
  have h2 : (iblk2 V c 2 t : S1x192.Idx → EReal) = (V c main_v48 : S1x192.Idx → EReal) := by
    funext y
    show V c main_v48 (((cfg2.win 2).blk t).view.emb y) = V c main_v48 y
    refine congrArg (V c main_v48) (funext fun a => Fin.ext ?_)
    match a with
    | ⟨0, _⟩ => show win2_2.index t (0 : Fin 2) * 1 + 1 * (y 0).val = (y 0).val; omega
    | ⟨1, _⟩ => show win2_2.index t (1 : Fin 2) * 192 + 1 * (y 1).val = (y 1).val; omega
  have h3 : (iblk2 V c 3 t : S192x192.Idx → EReal) = (V c main_arg14 : S192x192.Idx → EReal) := by
    funext y
    show V c main_arg14 (((cfg2.win 3).blk t).view.emb y) = V c main_arg14 y
    refine congrArg (V c main_arg14) (funext fun a => Fin.ext ?_)
    match a with
    | ⟨0, _⟩ => show win2_3.index t (0 : Fin 2) * 192 + 1 * (y 0).val = (y 0).val; omega
    | ⟨1, _⟩ => show win2_3.index t (1 : Fin 2) * 192 + 1 * (y 1).val = (y 1).val; omega
  have h4 : (iblk2 V c 4 t : S1x192.Idx → EReal) = (V c main_v49 : S1x192.Idx → EReal) := by
    funext y
    show V c main_v49 (((cfg2.win 4).blk t).view.emb y) = V c main_v49 y
    refine congrArg (V c main_v49) (funext fun a => Fin.ext ?_)
    match a with
    | ⟨0, _⟩ => show win2_4.index t (0 : Fin 2) * 1 + 1 * (y 0).val = (y 0).val; omega
    | ⟨1, _⟩ => show win2_4.index t (1 : Fin 2) * 192 + 1 * (y 1).val = (y 1).val; omega
  have hx0 : ∀ (p : Fin 2000) (l : Fin 192), (iblk2 V c 0 t : S2000x192.Idx → EReal) (ix2 p l)
      = (V c main_v47 : S250000x192.Idx → EReal) (ix2 (⟨t.val * 2000 + p.val, by omega⟩ : Fin 250000) l) := by
    intro p l
    show V c main_v47 (((cfg2.win 0).blk t).view.emb (ix2 p l)) = _
    refine congrArg (V c main_v47) (funext fun a => Fin.ext ?_)
    match a with
    | ⟨0, _⟩ => show win2_0.index t (0 : Fin 2) * 2000 + 1 * p.val = t.val * 2000 + p.val; omega
    | ⟨1, _⟩ => show win2_0.index t (1 : Fin 2) * 192 + 1 * l.val = l.val; omega
  funext j
  exact block_apply (iblk2 V c 0 t) (iblk2 V c 1 t) (iblk2 V c 2 t) (iblk2 V c 3 t) (iblk2 V c 4 t)
    (V c main_v47) (V c main_arg12) (V c main_v48) (V c main_arg14) (V c main_v49) t.val ht hx0 h1 h2 h3 h4 j
    (((cfg2.win 5).blk t).view.emb j)
    (show win2_5.index t (0 : Fin 2) * 2000 + 1 * (j 0).val = t.val * 2000 + (j 0).val by omega)
    (show win2_5.index t (1 : Fin 2) * 192 + 1 * (j 1).val = (j 1).val by omega)

/-- An index of the array lies in point `t`'s block iff each coordinate lies in the block's range on its axis. -/
theorem mem_blk (t : Fin cfg2.N) (i : S250000x192.Idx) :
    i ∈ ((cfg2.win 5).blk t).view.set ↔ ∀ a : Fin 2, win2_5.index t a * S2000x192.size a ≤ (i a).val
      ∧ (i a).val < win2_5.index t a * S2000x192.size a + S2000x192.size a := by
  show i ∈ ((View.whole main_v50).slice (win2_5.rect t)).set ↔ _
  rw [View.set_slice_whole, Rect.mem_set_unit]
  exact Iff.rfl

/-- The region's output array after the region: the perceptron of the arrays the region found, every row. Row `r`
    is written by the grid point `r / 2000`. -/
theorem final (c : Dev nD) : (dat2 V c).arrAt 5 cfg2.N = outArr V c :=
  (dat2 V c).arrAt_eq_of_cover 5 (outArr V c) (fun t _ => flushed_eq V c t) fun i => by
    have hi0 : (i 0).val < 250000 := (i 0).isLt
    have hi1 : (i 1).val < 192 := (i 1).isLt
    have hN : cfg2.N = 125 := N_2
    let t : Fin cfg2.N := ⟨(i 0).val / 2000, by rw [hN]; omega⟩
    obtain ⟨e0, e1, e2, e3, e4, e5, e6, e7, e8, e9, e10, e11⟩ := idx_facts t
    have e10' : win2_5.index t (0 : Fin 2) = (i 0).val / 2000 := e10
    refine ⟨t, flush2_5 t, ?_⟩
    rw [mem_blk]
    intro a
    match a with
    | ⟨0, _⟩ => show win2_5.index t (0 : Fin 2) * 2000 ≤ (i 0).val ∧ (i 0).val < win2_5.index t (0 : Fin 2) * 2000 + 2000; omega
    | ⟨1, _⟩ => show win2_5.index t (1 : Fin 2) * 192 ≤ (i 1).val ∧ (i 1).val < win2_5.index t (1 : Fin 2) * 192 + 192; omega

end Cert.KernelIdeal.Region2

end
-- ==== Proof.RefStages.lean ====
/-
  The reference's three message arrays as the row perceptron. For each relation the reference's host line is two
  dot_generals, the bias vectors broadcast first to one-row matrices and then down the rows, and a maximum with a
  zero splat; read at an index that is entry (r, j) of relu (x · w₁ + b₁) · w₂ + b₂, x being the gathered rows.
-/
import proofs.«163699_j52776558133695_2_alg».proof.Proof.Gen.ReferenceIdeal.Read
import proofs.«163699_j52776558133695_2_alg».proof.Proof.LibRowMlp

noncomputable section

namespace Cert.ReferenceIdeal.Stages

open Cert.ReferenceIdeal Cert.ReferenceIdeal.Read Idealize.ShloMosaic Cert.RowMlp

/-- The printed contraction records are the plain `[m, k] × [k, n]` ones. -/
theorem dot64 : dot_S250000x64_S64x64_S250000x64_1_0_0_1_n_n = DotDims.plain 250000 64 64 := rfl
theorem dot128 : dot_S250000x128_S128x128_S250000x128_1_0_0_1_n_n = DotDims.plain 250000 128 128 := rfl
theorem dot192 : dot_S250000x192_S192x192_S250000x192_1_0_0_1_n_n = DotDims.plain 250000 192 192 := rfl

variable (a0 : (⟨S200000x64, .f32⟩ : BufTy).Contents (Elt Ideal)) (a1 : (⟨S250000, .i32⟩ : BufTy).Contents (Elt Ideal)) (a2 : (⟨S500000, .i32⟩ : BufTy).Contents (Elt Ideal)) (a3 : (⟨S750000, .i32⟩ : BufTy).Contents (Elt Ideal))
  (a4 : (⟨S64x64, .f32⟩ : BufTy).Contents (Elt Ideal)) (a5 : (⟨S64, .f32⟩ : BufTy).Contents (Elt Ideal)) (a6 : (⟨S64x64, .f32⟩ : BufTy).Contents (Elt Ideal)) (a7 : (⟨S64, .f32⟩ : BufTy).Contents (Elt Ideal))
  (a8 : (⟨S128x128, .f32⟩ : BufTy).Contents (Elt Ideal)) (a9 : (⟨S128, .f32⟩ : BufTy).Contents (Elt Ideal)) (a10 : (⟨S128x128, .f32⟩ : BufTy).Contents (Elt Ideal)) (a11 : (⟨S128, .f32⟩ : BufTy).Contents (Elt Ideal))
  (a12 : (⟨S192x192, .f32⟩ : BufTy).Contents (Elt Ideal)) (a13 : (⟨S192, .f32⟩ : BufTy).Contents (Elt Ideal)) (a14 : (⟨S192x192, .f32⟩ : BufTy).Contents (Elt Ideal)) (a15 : (⟨S192, .f32⟩ : BufTy).Contents (Elt Ideal))

/-- Relation 0's messages: the perceptron of the gathered rows. -/
theorem msg0_eq : val_main_v16 (F := Ideal) a0 a1 a4 a5 a6 a7
    = mlpRows (val_main_v7 (F := Ideal) a0 a1) a4 (val_main_v9 (F := Ideal) a5) a6 (val_main_v14 (F := Ideal) a7) := by
  unfold val_main_v16 val_main_v15 val_main_v13 val_main_v12 val_main_call0_v0 val_main_call0_cst val_main_v11 val_main_v10 val_main_v8
  rw [dot64]
  exact hostMlp_eq _ _ _ _ _ _ _

/-- Relation 1's messages, before they are laid out one node per row. -/
theorem msg1_eq : val_main_v40 (F := Ideal) a0 a2 a8 a9 a10 a11
    = mlpRows (val_main_v31 (F := Ideal) a0 a2) a8 (val_main_v33 (F := Ideal) a9) a10 (val_main_v38 (F := Ideal) a11) := by
  unfold val_main_v40 val_main_v39 val_main_v37 val_main_v36 val_main_call1_v0 val_main_call1_cst val_main_v35 val_main_v34 val_main_v32
  rw [dot128]
  exact hostMlp_eq _ _ _ _ _ _ _

/-- Relation 2's messages, before they are laid out one node per row. -/
theorem msg2_eq : val_main_v65 (F := Ideal) a0 a3 a12 a13 a14 a15
    = mlpRows (val_main_v56 (F := Ideal) a0 a3) a12 (val_main_v58 (F := Ideal) a13) a14 (val_main_v63 (F := Ideal) a15) := by
  unfold val_main_v65 val_main_v64 val_main_v62 val_main_v61 val_main_call2_v0 val_main_call2_cst val_main_v60 val_main_v59 val_main_v57
  rw [dot192]
  exact hostMlp_eq _ _ _ _ _ _ _

end Cert.ReferenceIdeal.Stages

end
-- ==== Proof.Region1.lean ====
/-
  Relation 1's message perceptron as one array. The region's grid has 125 points; point t stages rows
  2000·t … 2000·t+1999 of the gathered rows (width 128), the two weight matrices and the two one-row biases whole, and
  writes back the same rows of the message array. At the extended reals the body's stored value at a row is the
  perceptron's entry of that row: relu (x · w₁ + b₁) · w₂ + b₂, the format changes being the identity. The blocks of the
  125 points tile the 250000 rows, so after the region the message array holds the perceptron of the arrays the
  region found, every row.
-/
import proofs.«163699_j52776558133695_2_alg».proof.Proof.Gen.KernelIdeal.Frame
import proofs.«163699_j52776558133695_2_alg».proof.Proof.LibRowMlp

set_option maxRecDepth 16384

noncomputable section

namespace Cert.KernelIdeal.Region1

open Cert.KernelIdeal Cert.KernelIdeal.Gen
open Idealize.ShloMosaic Idealize.ShloMosaic.TcCoe Idealize.SL.Sem Idealize.ShloMosaic.ValueIdx
open Idealize.ShloMosaic.Pipeline (Dat)
open Cert.RowMlp

/-- The printed contraction record is the plain `[m, k] × [k, n]` one. -/
theorem dot_plain : dot_S2000x128_S128x128_S2000x128_1_0_0_1_n_n = DotDims.plain 2000 128 128 := rfl

/-- The body's stored value at an entry of its block: the perceptron's entry of the block's rows. -/
theorem pay_apply (v0 : Vec Ideal S2000x128 .bf16) (v2 : Vec Ideal S128x128 .f32) (v5 : Vec Ideal S1x128 .f32)
    (v12 : Vec Ideal S128x128 .f32) (v15 : Vec Ideal S1x128 .f32) (p : Fin 2000) (q : Fin 128) :
    k1_pay1 (F := Ideal) v0 v2 v5 v12 v15 (ix2 p q) = mlpAt v0 v2 v5 v12 v15 p q := by
  unfold k1_pay1
  rw [dot_plain]
  exact mlpBlock_apply v0 v2 v5 v12 v15 _ _ _ _ p q

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the gathered rows and the output move with the point, one block of 2000 rows
    each; the weights and biases are staged whole. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The message array the region leaves: the perceptron of the gathered rows, the weights and the bias rows as the
    region finds them. -/
def outArr (c : Dev nD) : S250000x128.Idx → EReal :=
  mlpRows (V c main_v27) (V c main_arg8) (V c main_v28) (V c main_arg10) (V c main_v29)

/-- The body's value on the block of rows `k*2000 … k*2000+1999`, at an entry of the block, is the perceptron's entry of
    the whole array at that row. -/
theorem block_apply (x0 : Vec Ideal S2000x128 .bf16) (x1 : Vec Ideal S128x128 .f32) (x2 : Vec Ideal S1x128 .f32)
    (x3 : Vec Ideal S128x128 .f32) (x4 : Vec Ideal S1x128 .f32)
    (X : S250000x128.Idx → EReal) (W1 : S128x128.Idx → EReal) (B1 : S1x128.Idx → EReal) (W2 : S128x128.Idx → EReal)
    (B2 : S1x128.Idx → EReal) (k : ℕ) (hk : k < 125)
    (hx0 : ∀ (p : Fin 2000) (l : Fin 128), x0 (ix2 p l) = X (ix2 (⟨k * 2000 + p.val, by omega⟩ : Fin 250000) l))
    (h1 : x1 = W1) (h2 : x2 = B1) (h3 : x3 = W2) (h4 : x4 = B2)
    (y : S2000x128.Idx) (i : S250000x128.Idx) (hi0 : (i 0).val = k * 2000 + (y 0).val) (hi1 : (i 1).val = (y 1).val) :
    k1_pay1 (F := Ideal) x0 x1 x2 x3 x4 y = mlpRows X W1 B1 W2 B2 i := by
  subst h1 h2 h3 h4
  obtain ⟨p, q, rfl⟩ : ∃ (p : Fin 2000) (q : Fin 128), y = ix2 p q := ⟨y 0, y 1, eq_ix2 y⟩
  have hb : k * 2000 + p.val < 250000 := by have := p.isLt; omega
  obtain ⟨r, j, rfl⟩ : ∃ (r : Fin 250000) (j : Fin 128), i = ix2 r j := ⟨i 0, i 1, eq_ix2 i⟩
  have hr : r = ⟨k * 2000 + p.val, hb⟩ := Fin.ext hi0
  have hj : j = q := Fin.ext hi1
  subst hr hj
  rw [pay_apply, mlpRows_apply]
  unfold mlpAt
  simp only [hx0]

/-- What point `t` writes back is block `t` of the perceptron of the arrays the region found. -/
theorem flushed_eq (c : Dev nD) (t : Fin cfg1.N) :
    (dat1 V c).flushed 5 t = ((cfg1.win 5).blk t).view.read (Elt Ideal) (outArr V c) := by
  show (cfg1.win 5).cut (grid1.coords t) ((dat1 V c).after 5 t) = _
  rw [after1_5]
  unfold out1_5
  rw [View.canon_unit_zero hz]
  simp only [View.ld_unit_zero (S := S2000x128) hz, View.ld_unit_zero (S := S128x128) hz, View.ld_unit_zero (S := S1x128) hz]
  obtain ⟨e0, e1, e2, e3, e4, e5, e6, e7, e8, e9, e10, e11⟩ := idx_facts t
  have ht : t.val < 125 := lt_of_lt_of_eq t.isLt N_1
  have h1 : (iblk1 V c 1 t : S128x128.Idx → EReal) = (V c main_arg8 : S128x128.Idx → EReal) := by
    funext y
    show V c main_arg8 (((cfg1.win 1).blk t).view.emb y) = V c main_arg8 y
    refine congrArg (V c main_arg8) (funext fun a => Fin.ext ?_)
    match a with
    | ⟨0, _⟩ => show win1_1.index t (0 : Fin 2) * 128 + 1 * (y 0).val = (y 0).val; omega
    | ⟨1, _⟩ => show win1_1.index t (1 : Fin 2) * 128 + 1 * (y 1).val = (y 1).val; omega
  have h2 : (iblk1 V c 2 t : S1x128.Idx → EReal) = (V c main_v28 : S1x128.Idx → EReal) := by
    funext y
    show V c main_v28 (((cfg1.win 2).blk t).view.emb y) = V c main_v28 y
    refine congrArg (V c main_v28) (funext fun a => Fin.ext ?_)
    match a with
    | ⟨0, _⟩ => show win1_2.index t (0 : Fin 2) * 1 + 1 * (y 0).val = (y 0).val; omega
    | ⟨1, _⟩ => show win1_2.index t (1 : Fin 2) * 128 + 1 * (y 1).val = (y 1).val; omega
  have h3 : (iblk1 V c 3 t : S128x128.Idx → EReal) = (V c main_arg10 : S128x128.Idx → EReal) := by
    funext y
    show V c main_arg10 (((cfg1.win 3).blk t).view.emb y) = V c main_arg10 y
    refine congrArg (V c main_arg10) (funext fun a => Fin.ext ?_)
    match a with
    | ⟨0, _⟩ => show win1_3.index t (0 : Fin 2) * 128 + 1 * (y 0).val = (y 0).val; omega
    | ⟨1, _⟩ => show win1_3.index t (1 : Fin 2) * 128 + 1 * (y 1).val = (y 1).val; omega
  have h4 : (iblk1 V c 4 t : S1x128.Idx → EReal) = (V c main_v29 : S1x128.Idx → EReal) := by
    funext y
    show V c main_v29 (((cfg1.win 4).blk t).view.emb y) = V c main_v29 y
    refine congrArg (V c main_v29) (funext fun a => Fin.ext ?_)
    match a with
    | ⟨0, _⟩ => show win1_4.index t (0 : Fin 2) * 1 + 1 * (y 0).val = (y 0).val; omega
    | ⟨1, _⟩ => show win1_4.index t (1 : Fin 2) * 128 + 1 * (y 1).val = (y 1).val; omega
  have hx0 : ∀ (p : Fin 2000) (l : Fin 128), (iblk1 V c 0 t : S2000x128.Idx → EReal) (ix2 p l)
      = (V c main_v27 : S250000x128.Idx → EReal) (ix2 (⟨t.val * 2000 + p.val, by omega⟩ : Fin 250000) l) := by
    intro p l
    show V c main_v27 (((cfg1.win 0).blk t).view.emb (ix2 p l)) = _
    refine congrArg (V c main_v27) (funext fun a => Fin.ext ?_)
    match a with
    | ⟨0, _⟩ => show win1_0.index t (0 : Fin 2) * 2000 + 1 * p.val = t.val * 2000 + p.val; omega
    | ⟨1, _⟩ => show win1_0.index t (1 : Fin 2) * 128 + 1 * l.val = l.val; omega
  funext j
  exact block_apply (iblk1 V c 0 t) (iblk1 V c 1 t) (iblk1 V c 2 t) (iblk1 V c 3 t) (iblk1 V c 4 t)
    (V c main_v27) (V c main_arg8) (V c main_v28) (V c main_arg10) (V c main_v29) t.val ht hx0 h1 h2 h3 h4 j
    (((cfg1.win 5).blk t).view.emb j)
    (show win1_5.index t (0 : Fin 2) * 2000 + 1 * (j 0).val = t.val * 2000 + (j 0).val by omega)
    (show win1_5.index t (1 : Fin 2) * 128 + 1 * (j 1).val = (j 1).val by omega)

/-- An index of the array lies in point `t`'s block iff each coordinate lies in the block's range on its axis. -/
theorem mem_blk (t : Fin cfg1.N) (i : S250000x128.Idx) :
    i ∈ ((cfg1.win 5).blk t).view.set ↔ ∀ a : Fin 2, win1_5.index t a * S2000x128.size a ≤ (i a).val
      ∧ (i a).val < win1_5.index t a * S2000x128.size a + S2000x128.size a := by
  show i ∈ ((View.whole main_v30).slice (win1_5.rect t)).set ↔ _
  rw [View.set_slice_whole, Rect.mem_set_unit]
  exact Iff.rfl

/-- The region's output array after the region: the perceptron of the arrays the region found, every row. Row `r`
    is written by the grid point `r / 2000`. -/
theorem final (c : Dev nD) : (dat1 V c).arrAt 5 cfg1.N = outArr V c :=
  (dat1 V c).arrAt_eq_of_cover 5 (outArr V c) (fun t _ => flushed_eq V c t) fun i => by
    have hi0 : (i 0).val < 250000 := (i 0).isLt
    have hi1 : (i 1).val < 128 := (i 1).isLt
    have hN : cfg1.N = 125 := N_1
    let t : Fin cfg1.N := ⟨(i 0).val / 2000, by rw [hN]; omega⟩
    obtain ⟨e0, e1, e2, e3, e4, e5, e6, e7, e8, e9, e10, e11⟩ := idx_facts t
    have e10' : win1_5.index t (0 : Fin 2) = (i 0).val / 2000 := e10
    refine ⟨t, flush1_5 t, ?_⟩
    rw [mem_blk]
    intro a
    match a with
    | ⟨0, _⟩ => show win1_5.index t (0 : Fin 2) * 2000 ≤ (i 0).val ∧ (i 0).val < win1_5.index t (0 : Fin 2) * 2000 + 2000; omega
    | ⟨1, _⟩ => show win1_5.index t (1 : Fin 2) * 128 ≤ (i 1).val ∧ (i 1).val < win1_5.index t (1 : Fin 2) * 128 + 128; omega

end Cert.KernelIdeal.Region1

end
-- ==== Proof.Region0.lean ====
/-
  Relation 0's message perceptron as one array. The region's grid has 125 points; point t stages rows
  2000·t … 2000·t+1999 of the gathered rows (width 64), the two weight matrices and the two one-row biases whole, and
  writes back the same rows of the message array. At the extended reals the body's stored value at a row is the
  perceptron's entry of that row: relu (x · w₁ + b₁) · w₂ + b₂, the format changes being the identity. The blocks of the
  125 points tile the 250000 rows, so after the region the message array holds the perceptron of the arrays the
  region found, every row.
-/
import proofs.«163699_j52776558133695_2_alg».proof.Proof.Gen.KernelIdeal.Frame
import proofs.«163699_j52776558133695_2_alg».proof.Proof.LibRowMlp

set_option maxRecDepth 16384

noncomputable section

namespace Cert.KernelIdeal.Region0

open Cert.KernelIdeal Cert.KernelIdeal.Gen
open Idealize.ShloMosaic Idealize.ShloMosaic.TcCoe Idealize.SL.Sem Idealize.ShloMosaic.ValueIdx
open Idealize.ShloMosaic.Pipeline (Dat)
open Cert.RowMlp

/-- The printed contraction record is the plain `[m, k] × [k, n]` one. -/
theorem dot_plain : dot_S2000x64_S64x64_S2000x64_1_0_0_1_n_n = DotDims.plain 2000 64 64 := rfl

/-- The body's stored value at an entry of its block: the perceptron's entry of the block's rows. -/
theorem pay_apply (v0 : Vec Ideal S2000x64 .bf16) (v2 : Vec Ideal S64x64 .f32) (v5 : Vec Ideal S1x64 .f32)
    (v12 : Vec Ideal S64x64 .f32) (v15 : Vec Ideal S1x64 .f32) (p : Fin 2000) (q : Fin 64) :
    k0_pay1 (F := Ideal) v0 v2 v5 v12 v15 (ix2 p q) = mlpAt v0 v2 v5 v12 v15 p q := by
  unfold k0_pay1
  rw [dot_plain]
  exact mlpBlock_apply v0 v2 v5 v12 v15 _ _ _ _ p q

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the gathered rows and the output move with the point, one block of 2000 rows
    each; the weights and biases are staged whole. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The message array the region leaves: the perceptron of the gathered rows, the weights and the bias rows as the
    region finds them. -/
def outArr (c : Dev nD) : S250000x64.Idx → EReal :=
  mlpRows (V c main_v8) (V c main_arg4) (V c main_v9) (V c main_arg6) (V c main_v10)

/-- The body's value on the block of rows `k*2000 … k*2000+1999`, at an entry of the block, is the perceptron's entry of
    the whole array at that row. -/
theorem block_apply (x0 : Vec Ideal S2000x64 .bf16) (x1 : Vec Ideal S64x64 .f32) (x2 : Vec Ideal S1x64 .f32)
    (x3 : Vec Ideal S64x64 .f32) (x4 : Vec Ideal S1x64 .f32)
    (X : S250000x64.Idx → EReal) (W1 : S64x64.Idx → EReal) (B1 : S1x64.Idx → EReal) (W2 : S64x64.Idx → EReal)
    (B2 : S1x64.Idx → EReal) (k : ℕ) (hk : k < 125)
    (hx0 : ∀ (p : Fin 2000) (l : Fin 64), x0 (ix2 p l) = X (ix2 (⟨k * 2000 + p.val, by omega⟩ : Fin 250000) l))
    (h1 : x1 = W1) (h2 : x2 = B1) (h3 : x3 = W2) (h4 : x4 = B2)
    (y : S2000x64.Idx) (i : S250000x64.Idx) (hi0 : (i 0).val = k * 2000 + (y 0).val) (hi1 : (i 1).val = (y 1).val) :
    k0_pay1 (F := Ideal) x0 x1 x2 x3 x4 y = mlpRows X W1 B1 W2 B2 i := by
  subst h1 h2 h3 h4
  obtain ⟨p, q, rfl⟩ : ∃ (p : Fin 2000) (q : Fin 64), y = ix2 p q := ⟨y 0, y 1, eq_ix2 y⟩
  have hb : k * 2000 + p.val < 250000 := by have := p.isLt; omega
  obtain ⟨r, j, rfl⟩ : ∃ (r : Fin 250000) (j : Fin 64), i = ix2 r j := ⟨i 0, i 1, eq_ix2 i⟩
  have hr : r = ⟨k * 2000 + p.val, hb⟩ := Fin.ext hi0
  have hj : j = q := Fin.ext hi1
  subst hr hj
  rw [pay_apply, mlpRows_apply]
  unfold mlpAt
  simp only [hx0]

/-- What point `t` writes back is block `t` of the perceptron of the arrays the region found. -/
theorem flushed_eq (c : Dev nD) (t : Fin cfg0.N) :
    (dat0 V c).flushed 5 t = ((cfg0.win 5).blk t).view.read (Elt Ideal) (outArr V c) := by
  show (cfg0.win 5).cut (grid0.coords t) ((dat0 V c).after 5 t) = _
  rw [after0_5]
  unfold out0_5
  rw [View.canon_unit_zero hz]
  simp only [View.ld_unit_zero (S := S2000x64) hz, View.ld_unit_zero (S := S64x64) hz, View.ld_unit_zero (S := S1x64) hz]
  obtain ⟨e0, e1, e2, e3, e4, e5, e6, e7, e8, e9, e10, e11⟩ := idx_facts t
  have ht : t.val < 125 := lt_of_lt_of_eq t.isLt N_0
  have h1 : (iblk0 V c 1 t : S64x64.Idx → EReal) = (V c main_arg4 : S64x64.Idx → EReal) := by
    funext y
    show V c main_arg4 (((cfg0.win 1).blk t).view.emb y) = V c main_arg4 y
    refine congrArg (V c main_arg4) (funext fun a => Fin.ext ?_)
    match a with
    | ⟨0, _⟩ => show win0_1.index t (0 : Fin 2) * 64 + 1 * (y 0).val = (y 0).val; omega
    | ⟨1, _⟩ => show win0_1.index t (1 : Fin 2) * 64 + 1 * (y 1).val = (y 1).val; omega
  have h2 : (iblk0 V c 2 t : S1x64.Idx → EReal) = (V c main_v9 : S1x64.Idx → EReal) := by
    funext y
    show V c main_v9 (((cfg0.win 2).blk t).view.emb y) = V c main_v9 y
    refine congrArg (V c main_v9) (funext fun a => Fin.ext ?_)
    match a with
    | ⟨0, _⟩ => show win0_2.index t (0 : Fin 2) * 1 + 1 * (y 0).val = (y 0).val; omega
    | ⟨1, _⟩ => show win0_2.index t (1 : Fin 2) * 64 + 1 * (y 1).val = (y 1).val; omega
  have h3 : (iblk0 V c 3 t : S64x64.Idx → EReal) = (V c main_arg6 : S64x64.Idx → EReal) := by
    funext y
    show V c main_arg6 (((cfg0.win 3).blk t).view.emb y) = V c main_arg6 y
    refine congrArg (V c main_arg6) (funext fun a => Fin.ext ?_)
    match a with
    | ⟨0, _⟩ => show win0_3.index t (0 : Fin 2) * 64 + 1 * (y 0).val = (y 0).val; omega
    | ⟨1, _⟩ => show win0_3.index t (1 : Fin 2) * 64 + 1 * (y 1).val = (y 1).val; omega
  have h4 : (iblk0 V c 4 t : S1x64.Idx → EReal) = (V c main_v10 : S1x64.Idx → EReal) := by
    funext y
    show V c main_v10 (((cfg0.win 4).blk t).view.emb y) = V c main_v10 y
    refine congrArg (V c main_v10) (funext fun a => Fin.ext ?_)
    match a with
    | ⟨0, _⟩ => show win0_4.index t (0 : Fin 2) * 1 + 1 * (y 0).val = (y 0).val; omega
    | ⟨1, _⟩ => show win0_4.index t (1 : Fin 2) * 64 + 1 * (y 1).val = (y 1).val; omega
  have hx0 : ∀ (p : Fin 2000) (l : Fin 64), (iblk0 V c 0 t : S2000x64.Idx → EReal) (ix2 p l)
      = (V c main_v8 : S250000x64.Idx → EReal) (ix2 (⟨t.val * 2000 + p.val, by omega⟩ : Fin 250000) l) := by
    intro p l
    show V c main_v8 (((cfg0.win 0).blk t).view.emb (ix2 p l)) = _
    refine congrArg (V c main_v8) (funext fun a => Fin.ext ?_)
    match a with
    | ⟨0, _⟩ => show win0_0.index t (0 : Fin 2) * 2000 + 1 * p.val = t.val * 2000 + p.val; omega
    | ⟨1, _⟩ => show win0_0.index t (1 : Fin 2) * 64 + 1 * l.val = l.val; omega
  funext j
  exact block_apply (iblk0 V c 0 t) (iblk0 V c 1 t) (iblk0 V c 2 t) (iblk0 V c 3 t) (iblk0 V c 4 t)
    (V c main_v8) (V c main_arg4) (V c main_v9) (V c main_arg6) (V c main_v10) t.val ht hx0 h1 h2 h3 h4 j
    (((cfg0.win 5).blk t).view.emb j)
    (show win0_5.index t (0 : Fin 2) * 2000 + 1 * (j 0).val = t.val * 2000 + (j 0).val by omega)
    (show win0_5.index t (1 : Fin 2) * 64 + 1 * (j 1).val = (j 1).val by omega)

/-- An index of the array lies in point `t`'s block iff each coordinate lies in the block's range on its axis. -/
theorem mem_blk (t : Fin cfg0.N) (i : S250000x64.Idx) :
    i ∈ ((cfg0.win 5).blk t).view.set ↔ ∀ a : Fin 2, win0_5.index t a * S2000x64.size a ≤ (i a).val
      ∧ (i a).val < win0_5.index t a * S2000x64.size a + S2000x64.size a := by
  show i ∈ ((View.whole main_v11).slice (win0_5.rect t)).set ↔ _
  rw [View.set_slice_whole, Rect.mem_set_unit]
  exact Iff.rfl

/-- The region's output array after the region: the perceptron of the arrays the region found, every row. Row `r`
    is written by the grid point `r / 2000`. -/
theorem final (c : Dev nD) : (dat0 V c).arrAt 5 cfg0.N = outArr V c :=
  (dat0 V c).arrAt_eq_of_cover 5 (outArr V c) (fun t _ => flushed_eq V c t) fun i => by
    have hi0 : (i 0).val < 250000 := (i 0).isLt
    have hi1 : (i 1).val < 64 := (i 1).isLt
    have hN : cfg0.N = 125 := N_0
    let t : Fin cfg0.N := ⟨(i 0).val / 2000, by rw [hN]; omega⟩
    obtain ⟨e0, e1, e2, e3, e4, e5, e6, e7, e8, e9, e10, e11⟩ := idx_facts t
    have e10' : win0_5.index t (0 : Fin 2) = (i 0).val / 2000 := e10
    refine ⟨t, flush0_5 t, ?_⟩
    rw [mem_blk]
    intro a
    match a with
    | ⟨0, _⟩ => show win0_5.index t (0 : Fin 2) * 2000 ≤ (i 0).val ∧ (i 0).val < win0_5.index t (0 : Fin 2) * 2000 + 2000; omega
    | ⟨1, _⟩ => show win0_5.index t (1 : Fin 2) * 64 ≤ (i 1).val ∧ (i 1).val < win0_5.index t (1 : Fin 2) * 64 + 64; omega

end Cert.KernelIdeal.Region0

end
-- ==== Proof.GlueA.lean ====
/-
  From the launch to the exit of region 0. The host lines before region 0 gather the rows of the node table named by
  relation 0's indices (the table first converted to the narrower format, the identity on the extended reals) and view
  the two bias vectors as one-row matrices; region 0 then leaves the perceptron of those arrays. Read against the
  reference's stages, the message array after region 0 is the reference's message array of relation 0. The buffers
  the later host lines read (the zero array, the converted node table, the arguments) are as the first stretch left
  them: a region changes its own arrays only.
-/
import proofs.«163699_j52776558133695_2_alg».proof.Proof.Gen.KernelIdeal.Frame
import proofs.«163699_j52776558133695_2_alg».proof.Proof.Region0
import proofs.«163699_j52776558133695_2_alg».proof.Proof.RefStages
import proofs.«163699_j52776558133695_2_alg».proof.Proof.LibUnitAxisCast
import Idealize.ShloMosaic.Lib.StableHlo.Run
import Idealize.ShloMosaic.PureOps.Ideal.Laws

set_option maxRecDepth 16384

noncomputable section

namespace Cert.KernelIdeal.Glue

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## Region 0's entry -/

theorem V1_v8 : (V1 m ρ c main_v8 : S250000x64.Idx → EReal) = Cert.ReferenceIdeal.Read.val_main_v7 (F := Ideal) (m ((c.tc : Thread nD τ).loc main_arg0)) (m ((c.tc : Thread nD τ).loc main_arg1)) := by
  show StableHlo.after hostOps0 (W0 m ρ c) (Proc.devRef .tc main_v8) = _
  after_results
  rfl

theorem V1_arg4 : (V1 m ρ c main_arg4 : S64x64.Idx → EReal) = (m ((c.tc : Thread nD τ).loc main_arg4)) := by
  show StableHlo.after hostOps0 (W0 m ρ c) (Proc.devRef .tc main_arg4) = _
  after_results

theorem V1_arg6 : (V1 m ρ c main_arg6 : S64x64.Idx → EReal) = (m ((c.tc : Thread nD τ).loc main_arg6)) := by
  show StableHlo.after hostOps0 (W0 m ρ c) (Proc.devRef .tc main_arg6) = _
  after_results

/-- A bias vector viewed as a one-row matrix is the vector broadcast along the new unit axis. -/
theorem V1_v9 : (V1 m ρ c main_v9 : S1x64.Idx → EReal) = Cert.ReferenceIdeal.Read.val_main_v9 (F := Ideal) (m ((c.tc : Thread nD τ).loc main_arg5)) := by
  show StableHlo.after hostOps0 (W0 m ρ c) (Proc.devRef .tc main_v9) = _
  after_results
  exact Cert.Lib.UnitAxisCast.shapeCast_row 64 (m ((c.tc : Thread nD τ).loc main_arg5)) _ _

theorem V1_v10 : (V1 m ρ c main_v10 : S1x64.Idx → EReal) = Cert.ReferenceIdeal.Read.val_main_v14 (F := Ideal) (m ((c.tc : Thread nD τ).loc main_arg7)) := by
  show StableHlo.after hostOps0 (W0 m ρ c) (Proc.devRef .tc main_v10) = _
  after_results
  exact Cert.Lib.UnitAxisCast.shapeCast_row 64 (m ((c.tc : Thread nD τ).loc main_arg7)) _ _

/-! ## After region 0 -/

/-- The message array of relation 0 is the reference's. -/
theorem msg0 : (W2 m ρ c (Proc.devRef .tc main_v11) : S250000x64.Idx → EReal)
    = Cert.ReferenceIdeal.Read.val_main_v16 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) := by
  refine ((W2_arr m ρ c 5).trans (Region0.final (V1 m ρ) c)).trans ?_
  unfold Region0.outArr
  rw [V1_v8, V1_arg4, V1_v9, V1_arg6, V1_v10]
  exact (Cert.ReferenceIdeal.Stages.msg0_eq _ _ _ _ _ _).symm

/-- The zero array the first scatter adds into. -/
theorem W2_v1 : (W2 m ρ c (Proc.devRef .tc main_v1) : S200000x64.Idx → EReal) = Cert.ReferenceIdeal.Read.val_main_v0 (F := Ideal) := by
  rw [W2_of_ne m ρ c main_v1 (by decide)]
  show StableHlo.after hostOps0 (W0 m ρ c) (Proc.devRef .tc main_v1) = _
  after_results
  rfl

/-- The converted node table is the node table. -/
theorem W2_v0 : (W2 m ρ c (Proc.devRef .tc main_v0) : S200000x64.Idx → EReal) = (m ((c.tc : Thread nD τ).loc main_arg0)) := by
  rw [W2_of_ne m ρ c main_v0 (by decide)]
  show StableHlo.after hostOps0 (W0 m ρ c) (Proc.devRef .tc main_v0) = _
  after_results
  rfl

theorem W2_arg1 : W2 m ρ c (Proc.devRef .tc main_arg1) = m ((c.tc : Thread nD τ).loc main_arg1) := by
  rw [W2_of_ne m ρ c main_arg1 (by decide)]
  show StableHlo.after hostOps0 (W0 m ρ c) (Proc.devRef .tc main_arg1) = _
  after_results
theorem W2_arg2 : W2 m ρ c (Proc.devRef .tc main_arg2) = m ((c.tc : Thread nD τ).loc main_arg2) := by
  rw [W2_of_ne m ρ c main_arg2 (by decide)]
  show StableHlo.after hostOps0 (W0 m ρ c) (Proc.devRef .tc main_arg2) = _
  after_results
theorem W2_arg3 : W2 m ρ c (Proc.devRef .tc main_arg3) = m ((c.tc : Thread nD τ).loc main_arg3) := by
  rw [W2_of_ne m ρ c main_arg3 (by decide)]
  show StableHlo.after hostOps0 (W0 m ρ c) (Proc.devRef .tc main_arg3) = _
  after_results
theorem W2_arg8 : W2 m ρ c (Proc.devRef .tc main_arg8) = m ((c.tc : Thread nD τ).loc main_arg8) := by
  rw [W2_of_ne m ρ c main_arg8 (by decide)]
  show StableHlo.after hostOps0 (W0 m ρ c) (Proc.devRef .tc main_arg8) = _
  after_results
theorem W2_arg9 : W2 m ρ c (Proc.devRef .tc main_arg9) = m ((c.tc : Thread nD τ).loc main_arg9) := by
  rw [W2_of_ne m ρ c main_arg9 (by decide)]
  show StableHlo.after hostOps0 (W0 m ρ c) (Proc.devRef .tc main_arg9) = _
  after_results
theorem W2_arg10 : W2 m ρ c (Proc.devRef .tc main_arg10) = m ((c.tc : Thread nD τ).loc main_arg10) := by
  rw [W2_of_ne m ρ c main_arg10 (by decide)]
  show StableHlo.after hostOps0 (W0 m ρ c) (Proc.devRef .tc main_arg10) = _
  after_results
theorem W2_arg11 : W2 m ρ c (Proc.devRef .tc main_arg11) = m ((c.tc : Thread nD τ).loc main_arg11) := by
  rw [W2_of_ne m ρ c main_arg11 (by decide)]
  show StableHlo.after hostOps0 (W0 m ρ c) (Proc.devRef .tc main_arg11) = _
  after_results
theorem W2_arg12 : W2 m ρ c (Proc.devRef .tc main_arg12) = m ((c.tc : Thread nD τ).loc main_arg12) := by
  rw [W2_of_ne m ρ c main_arg12 (by decide)]
  show StableHlo.after hostOps0 (W0 m ρ c) (Proc.devRef .tc main_arg12) = _
  after_results
theorem W2_arg13 : W2 m ρ c (Proc.devRef .tc main_arg13) = m ((c.tc : Thread nD τ).loc main_arg13) := by
  rw [W2_of_ne m ρ c main_arg13 (by decide)]
  show StableHlo.after hostOps0 (W0 m ρ c) (Proc.devRef .tc main_arg13) = _
  after_results
theorem W2_arg14 : W2 m ρ c (Proc.devRef .tc main_arg14) = m ((c.tc : Thread nD τ).loc main_arg14) := by
  rw [W2_of_ne m ρ c main_arg14 (by decide)]
  show StableHlo.after hostOps0 (W0 m ρ c) (Proc.devRef .tc main_arg14) = _
  after_results
theorem W2_arg15 : W2 m ρ c (Proc.devRef .tc main_arg15) = m ((c.tc : Thread nD τ).loc main_arg15) := by
  rw [W2_of_ne m ρ c main_arg15 (by decide)]
  show StableHlo.after hostOps0 (W0 m ρ c) (Proc.devRef .tc main_arg15) = _
  after_results
theorem W2_arg16 : W2 m ρ c (Proc.devRef .tc main_arg16) = m ((c.tc : Thread nD τ).loc main_arg16) := by
  rw [W2_of_ne m ρ c main_arg16 (by decide)]
  show StableHlo.after hostOps0 (W0 m ρ c) (Proc.devRef .tc main_arg16) = _
  after_results
theorem W2_arg17 : W2 m ρ c (Proc.devRef .tc main_arg17) = m ((c.tc : Thread nD τ).loc main_arg17) := by
  rw [W2_of_ne m ρ c main_arg17 (by decide)]
  show StableHlo.after hostOps0 (W0 m ρ c) (Proc.devRef .tc main_arg17) = _
  after_results
theorem W2_arg18 : W2 m ρ c (Proc.devRef .tc main_arg18) = m ((c.tc : Thread nD τ).loc main_arg18) := by
  rw [W2_of_ne m ρ c main_arg18 (by decide)]
  show StableHlo.after hostOps0 (W0 m ρ c) (Proc.devRef .tc main_arg18) = _
  after_results
theorem W2_arg19 : W2 m ρ c (Proc.devRef .tc main_arg19) = m ((c.tc : Thread nD τ).loc main_arg19) := by
  rw [W2_of_ne m ρ c main_arg19 (by decide)]
  show StableHlo.after hostOps0 (W0 m ρ c) (Proc.devRef .tc main_arg19) = _
  after_results

end Cert.KernelIdeal.Glue

end
-- ==== Proof.GlueB.lean ====
/-
  From the exit of region 0 to the exit of region 1. The host lines between them add relation 0's messages into the
  zero array at the rows its indices name, gather the rows for relation 1 (two nodes per ground atom, laid side by side
  by a reshape) and view relation 1's bias vectors as one-row matrices; region 1 leaves the perceptron of those. Read
  against the reference's stages: the running sum after relation 0 and relation 1's message array are the reference's.
-/
import proofs.«163699_j52776558133695_2_alg».proof.Proof.Gen.KernelIdeal.Frame
import proofs.«163699_j52776558133695_2_alg».proof.Proof.Region1
import proofs.«163699_j52776558133695_2_alg».proof.Proof.RefStages
import proofs.«163699_j52776558133695_2_alg».proof.Proof.LibUnitAxisCast
import proofs.«163699_j52776558133695_2_alg».proof.Proof.GlueA
import Idealize.ShloMosaic.Lib.StableHlo.Run
import Idealize.ShloMosaic.PureOps.Ideal.Laws

set_option maxRecDepth 16384

noncomputable section

namespace Cert.KernelIdeal.Glue

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The running sum after relation 0 -/

set_option maxHeartbeats 2000000 in
theorem W3_v19 : (W3 m ρ c (Proc.devRef .tc main_v19) : S200000x64.Idx → EReal)
    = Cert.ReferenceIdeal.Read.val_main_v23 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) := by
  show StableHlo.after hostOps1 (W2 m ρ c) (Proc.devRef .tc main_v19) = _
  after_results_simp
  rw [W2_v1, W2_arg1, msg0]
  rfl

/-! ## Region 1's entry -/

set_option maxHeartbeats 2000000 in
theorem V3_v27 : (V3 m ρ c main_v27 : S250000x128.Idx → EReal) = Cert.ReferenceIdeal.Read.val_main_v31 (F := Ideal) (m ((c.tc : Thread nD τ).loc main_arg0)) (m ((c.tc : Thread nD τ).loc main_arg2)) := by
  show StableHlo.after hostOps1 (W2 m ρ c) (Proc.devRef .tc main_v27) = _
  after_results_simp
  rw [W2_v0, W2_arg2]
  rfl

theorem V3_arg8 : (V3 m ρ c main_arg8 : S128x128.Idx → EReal) = (m ((c.tc : Thread nD τ).loc main_arg8)) := by
  show StableHlo.after hostOps1 (W2 m ρ c) (Proc.devRef .tc main_arg8) = _
  after_results
  exact W2_arg8 m ρ c

theorem V3_arg10 : (V3 m ρ c main_arg10 : S128x128.Idx → EReal) = (m ((c.tc : Thread nD τ).loc main_arg10)) := by
  show StableHlo.after hostOps1 (W2 m ρ c) (Proc.devRef .tc main_arg10) = _
  after_results
  exact W2_arg10 m ρ c

theorem V3_v28 : (V3 m ρ c main_v28 : S1x128.Idx → EReal) = Cert.ReferenceIdeal.Read.val_main_v33 (F := Ideal) (m ((c.tc : Thread nD τ).loc main_arg9)) := by
  show StableHlo.after hostOps1 (W2 m ρ c) (Proc.devRef .tc main_v28) = _
  after_results
  rw [W2_arg9]
  exact Cert.Lib.UnitAxisCast.shapeCast_row 128 (m ((c.tc : Thread nD τ).loc main_arg9)) _ _

theorem V3_v29 : (V3 m ρ c main_v29 : S1x128.Idx → EReal) = Cert.ReferenceIdeal.Read.val_main_v38 (F := Ideal) (m ((c.tc : Thread nD τ).loc main_arg11)) := by
  show StableHlo.after hostOps1 (W2 m ρ c) (Proc.devRef .tc main_v29) = _
  after_results
  rw [W2_arg11]
  exact Cert.Lib.UnitAxisCast.shapeCast_row 128 (m ((c.tc : Thread nD τ).loc main_arg11)) _ _

/-! ## After region 1 -/

/-- The message array of relation 1 (one ground atom per row) is the reference's. -/
theorem msg1 : (W4 m ρ c (Proc.devRef .tc main_v30) : S250000x128.Idx → EReal)
    = Cert.ReferenceIdeal.Read.val_main_v40 (F := Ideal) (m ((c.tc : Thread nD τ).loc main_arg0)) (m ((c.tc : Thread nD τ).loc main_arg2)) (m ((c.tc : Thread nD τ).loc main_arg8)) (m ((c.tc : Thread nD τ).loc main_arg9)) (m ((c.tc : Thread nD τ).loc main_arg10)) (m ((c.tc : Thread nD τ).loc main_arg11)) := by
  refine ((W4_arr m ρ c 5).trans (Region1.final (V3 m ρ) c)).trans ?_
  unfold Region1.outArr
  rw [V3_v27, V3_arg8, V3_v28, V3_arg10, V3_v29]
  exact (Cert.ReferenceIdeal.Stages.msg1_eq _ _ _ _ _ _).symm

theorem W4_v19 : (W4 m ρ c (Proc.devRef .tc main_v19) : S200000x64.Idx → EReal)
    = Cert.ReferenceIdeal.Read.val_main_v23 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) := by
  rw [W4_of_ne m ρ c main_v19 (by decide)]
  exact W3_v19 m ρ c

theorem W4_v0 : (W4 m ρ c (Proc.devRef .tc main_v0) : S200000x64.Idx → EReal) = (m ((c.tc : Thread nD τ).loc main_arg0)) := by
  rw [W4_of_ne m ρ c main_v0 (by decide)]
  show StableHlo.after hostOps1 (W2 m ρ c) (Proc.devRef .tc main_v0) = _
  after_results
  exact W2_v0 m ρ c

theorem W4_arg2 : W4 m ρ c (Proc.devRef .tc main_arg2) = m ((c.tc : Thread nD τ).loc main_arg2) := by
  rw [W4_of_ne m ρ c main_arg2 (by decide)]
  show StableHlo.after hostOps1 (W2 m ρ c) (Proc.devRef .tc main_arg2) = _
  after_results
  exact W2_arg2 m ρ c
theorem W4_arg3 : W4 m ρ c (Proc.devRef .tc main_arg3) = m ((c.tc : Thread nD τ).loc main_arg3) := by
  rw [W4_of_ne m ρ c main_arg3 (by decide)]
  show StableHlo.after hostOps1 (W2 m ρ c) (Proc.devRef .tc main_arg3) = _
  after_results
  exact W2_arg3 m ρ c
theorem W4_arg12 : W4 m ρ c (Proc.devRef .tc main_arg12) = m ((c.tc : Thread nD τ).loc main_arg12) := by
  rw [W4_of_ne m ρ c main_arg12 (by decide)]
  show StableHlo.after hostOps1 (W2 m ρ c) (Proc.devRef .tc main_arg12) = _
  after_results
  exact W2_arg12 m ρ c
theorem W4_arg13 : W4 m ρ c (Proc.devRef .tc main_arg13) = m ((c.tc : Thread nD τ).loc main_arg13) := by
  rw [W4_of_ne m ρ c main_arg13 (by decide)]
  show StableHlo.after hostOps1 (W2 m ρ c) (Proc.devRef .tc main_arg13) = _
  after_results
  exact W2_arg13 m ρ c
theorem W4_arg14 : W4 m ρ c (Proc.devRef .tc main_arg14) = m ((c.tc : Thread nD τ).loc main_arg14) := by
  rw [W4_of_ne m ρ c main_arg14 (by decide)]
  show StableHlo.after hostOps1 (W2 m ρ c) (Proc.devRef .tc main_arg14) = _
  after_results
  exact W2_arg14 m ρ c
theorem W4_arg15 : W4 m ρ c (Proc.devRef .tc main_arg15) = m ((c.tc : Thread nD τ).loc main_arg15) := by
  rw [W4_of_ne m ρ c main_arg15 (by decide)]
  show StableHlo.after hostOps1 (W2 m ρ c) (Proc.devRef .tc main_arg15) = _
  after_results
  exact W2_arg15 m ρ c
theorem W4_arg16 : W4 m ρ c (Proc.devRef .tc main_arg16) = m ((c.tc : Thread nD τ).loc main_arg16) := by
  rw [W4_of_ne m ρ c main_arg16 (by decide)]
  show StableHlo.after hostOps1 (W2 m ρ c) (Proc.devRef .tc main_arg16) = _
  after_results
  exact W2_arg16 m ρ c
theorem W4_arg17 : W4 m ρ c (Proc.devRef .tc main_arg17) = m ((c.tc : Thread nD τ).loc main_arg17) := by
  rw [W4_of_ne m ρ c main_arg17 (by decide)]
  show StableHlo.after hostOps1 (W2 m ρ c) (Proc.devRef .tc main_arg17) = _
  after_results
  exact W2_arg17 m ρ c
theorem W4_arg18 : W4 m ρ c (Proc.devRef .tc main_arg18) = m ((c.tc : Thread nD τ).loc main_arg18) := by
  rw [W4_of_ne m ρ c main_arg18 (by decide)]
  show StableHlo.after hostOps1 (W2 m ρ c) (Proc.devRef .tc main_arg18) = _
  after_results
  exact W2_arg18 m ρ c
theorem W4_arg19 : W4 m ρ c (Proc.devRef .tc main_arg19) = m ((c.tc : Thread nD τ).loc main_arg19) := by
  rw [W4_of_ne m ρ c main_arg19 (by decide)]
  show StableHlo.after hostOps1 (W2 m ρ c) (Proc.devRef .tc main_arg19) = _
  after_results
  exact W2_arg19 m ρ c

end Cert.KernelIdeal.Glue

end
-- ==== Proof.GlueC.lean ====
/-
  From the exit of region 1 to the exit of region 2. The host lines between them lay relation 1's messages out one node
  per row and add them into the running sum at the rows relation 1's indices name, gather the rows for relation 2 (three
  nodes per ground atom, side by side) and view relation 2's bias vectors as one-row matrices; region 2 leaves the
  perceptron of those. Read against the reference's stages: the running sum after relation 1 and relation 2's message
  array are the reference's.
-/
import proofs.«163699_j52776558133695_2_alg».proof.Proof.Gen.KernelIdeal.Frame
import proofs.«163699_j52776558133695_2_alg».proof.Proof.Region2
import proofs.«163699_j52776558133695_2_alg».proof.Proof.RefStages
import proofs.«163699_j52776558133695_2_alg».proof.Proof.LibUnitAxisCast
import proofs.«163699_j52776558133695_2_alg».proof.Proof.GlueB
import Idealize.ShloMosaic.Lib.StableHlo.Run
import Idealize.ShloMosaic.PureOps.Ideal.Laws

set_option maxRecDepth 16384

noncomputable section

namespace Cert.KernelIdeal.Glue

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The running sum after relation 1 -/

set_option maxHeartbeats 2000000 in
theorem W5_v39 : (W5 m ρ c (Proc.devRef .tc main_v39) : S200000x64.Idx → EReal)
    = Cert.ReferenceIdeal.Read.val_main_v48 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  show StableHlo.after hostOps2 (W4 m ρ c) (Proc.devRef .tc main_v39) = _
  after_results_simp
  rw [W4_v19, W4_arg2, msg1]
  rfl

/-! ## Region 2's entry -/

set_option maxHeartbeats 2000000 in
theorem V5_v47 : (V5 m ρ c main_v47 : S250000x192.Idx → EReal) = Cert.ReferenceIdeal.Read.val_main_v56 (F := Ideal) (m ((c.tc : Thread nD τ).loc main_arg0)) (m ((c.tc : Thread nD τ).loc main_arg3)) := by
  show StableHlo.after hostOps2 (W4 m ρ c) (Proc.devRef .tc main_v47) = _
  after_results_simp
  rw [W4_v0, W4_arg3]
  rfl

theorem V5_arg12 : (V5 m ρ c main_arg12 : S192x192.Idx → EReal) = (m ((c.tc : Thread nD τ).loc main_arg12)) := by
  show StableHlo.after hostOps2 (W4 m ρ c) (Proc.devRef .tc main_arg12) = _
  after_results
  exact W4_arg12 m ρ c

theorem V5_arg14 : (V5 m ρ c main_arg14 : S192x192.Idx → EReal) = (m ((c.tc : Thread nD τ).loc main_arg14)) := by
  show StableHlo.after hostOps2 (W4 m ρ c) (Proc.devRef .tc main_arg14) = _
  after_results
  exact W4_arg14 m ρ c

theorem V5_v48 : (V5 m ρ c main_v48 : S1x192.Idx → EReal) = Cert.ReferenceIdeal.Read.val_main_v58 (F := Ideal) (m ((c.tc : Thread nD τ).loc main_arg13)) := by
  show StableHlo.after hostOps2 (W4 m ρ c) (Proc.devRef .tc main_v48) = _
  after_results
  rw [W4_arg13]
  exact Cert.Lib.UnitAxisCast.shapeCast_row 192 (m ((c.tc : Thread nD τ).loc main_arg13)) _ _

theorem V5_v49 : (V5 m ρ c main_v49 : S1x192.Idx → EReal) = Cert.ReferenceIdeal.Read.val_main_v63 (F := Ideal) (m ((c.tc : Thread nD τ).loc main_arg15)) := by
  show StableHlo.after hostOps2 (W4 m ρ c) (Proc.devRef .tc main_v49) = _
  after_results
  rw [W4_arg15]
  exact Cert.Lib.UnitAxisCast.shapeCast_row 192 (m ((c.tc : Thread nD τ).loc main_arg15)) _ _

/-! ## After region 2 -/

/-- The message array of relation 2 (one ground atom per row) is the reference's. -/
theorem msg2 : (W6 m ρ c (Proc.devRef .tc main_v50) : S250000x192.Idx → EReal)
    = Cert.ReferenceIdeal.Read.val_main_v65 (F := Ideal) (m ((c.tc : Thread nD τ).loc main_arg0)) (m ((c.tc : Thread nD τ).loc main_arg3)) (m ((c.tc : Thread nD τ).loc main_arg12)) (m ((c.tc : Thread nD τ).loc main_arg13)) (m ((c.tc : Thread nD τ).loc main_arg14)) (m ((c.tc : Thread nD τ).loc main_arg15)) := by
  refine ((W6_arr m ρ c 5).trans (Region2.final (V5 m ρ) c)).trans ?_
  unfold Region2.outArr
  rw [V5_v47, V5_arg12, V5_v48, V5_arg14, V5_v49]
  exact (Cert.ReferenceIdeal.Stages.msg2_eq _ _ _ _ _ _).symm

theorem W6_v39 : (W6 m ρ c (Proc.devRef .tc main_v39) : S200000x64.Idx → EReal)
    = Cert.ReferenceIdeal.Read.val_main_v48 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  rw [W6_of_ne m ρ c main_v39 (by decide)]
  exact W5_v39 m ρ c

theorem W6_v0 : (W6 m ρ c (Proc.devRef .tc main_v0) : S200000x64.Idx → EReal) = (m ((c.tc : Thread nD τ).loc main_arg0)) := by
  rw [W6_of_ne m ρ c main_v0 (by decide)]
  show StableHlo.after hostOps2 (W4 m ρ c) (Proc.devRef .tc main_v0) = _
  after_results
  exact W4_v0 m ρ c

theorem W6_arg3 : W6 m ρ c (Proc.devRef .tc main_arg3) = m ((c.tc : Thread nD τ).loc main_arg3) := by
  rw [W6_of_ne m ρ c main_arg3 (by decide)]
  show StableHlo.after hostOps2 (W4 m ρ c) (Proc.devRef .tc main_arg3) = _
  after_results
  exact W4_arg3 m ρ c
theorem W6_arg16 : W6 m ρ c (Proc.devRef .tc main_arg16) = m ((c.tc : Thread nD τ).loc main_arg16) := by
  rw [W6_of_ne m ρ c main_arg16 (by decide)]
  show StableHlo.after hostOps2 (W4 m ρ c) (Proc.devRef .tc main_arg16) = _
  after_results
  exact W4_arg16 m ρ c
theorem W6_arg17 : W6 m ρ c (Proc.devRef .tc main_arg17) = m ((c.tc : Thread nD τ).loc main_arg17) := by
  rw [W6_of_ne m ρ c main_arg17 (by decide)]
  show StableHlo.after hostOps2 (W4 m ρ c) (Proc.devRef .tc main_arg17) = _
  after_results
  exact W4_arg17 m ρ c
theorem W6_arg18 : W6 m ρ c (Proc.devRef .tc main_arg18) = m ((c.tc : Thread nD τ).loc main_arg18) := by
  rw [W6_of_ne m ρ c main_arg18 (by decide)]
  show StableHlo.after hostOps2 (W4 m ρ c) (Proc.devRef .tc main_arg18) = _
  after_results
  exact W4_arg18 m ρ c
theorem W6_arg19 : W6 m ρ c (Proc.devRef .tc main_arg19) = m ((c.tc : Thread nD τ).loc main_arg19) := by
  rw [W6_of_ne m ρ c main_arg19 (by decide)]
  show StableHlo.after hostOps2 (W4 m ρ c) (Proc.devRef .tc main_arg19) = _
  after_results
  exact W4_arg19 m ρ c

end Cert.KernelIdeal.Glue

end
-- ==== Proof.GlueD.lean ====
/-
  From the exit of region 2 to the return. The host lines before the last region lay relation 2's messages out one node
  per row and add them into the running sum, cut the first update matrix into its upper and lower halves and view the
  two update biases as one-row matrices; the last region leaves the update perceptron of the summed messages and the
  node table. The reference joins the summed messages and the node table side by side and multiplies by the whole first
  matrix: the same entries, a sum over the joined width being the sum of its two halves. So the result array is the
  reference's result stage.
-/
import proofs.«163699_j52776558133695_2_alg».proof.Proof.Gen.KernelIdeal.Frame
import proofs.«163699_j52776558133695_2_alg».proof.Proof.Region3
import proofs.«163699_j52776558133695_2_alg».proof.Proof.RefUpdate
import proofs.«163699_j52776558133695_2_alg».proof.Proof.LibUnitAxisCast
import proofs.«163699_j52776558133695_2_alg».proof.Proof.GlueC
import Idealize.ShloMosaic.Lib.StableHlo.Run
import Idealize.ShloMosaic.PureOps.Ideal.Laws

set_option maxRecDepth 16384

noncomputable section

namespace Cert.KernelIdeal.Glue

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## Region 3's entry -/

set_option maxHeartbeats 2000000 in
/-- The summed messages. -/
theorem V7_v59 : (V7 m ρ c main_v59 : S200000x64.Idx → EReal) = Cert.ReferenceIdeal.Read.val_main_v73 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  show StableHlo.after hostOps3 (W6 m ρ c) (Proc.devRef .tc main_v59) = _
  after_results_simp
  rw [W6_v39, W6_arg3, msg2]
  rfl

theorem V7_v0 : (V7 m ρ c main_v0 : S200000x64.Idx → EReal) = (m ((c.tc : Thread nD τ).loc main_arg0)) := by
  show StableHlo.after hostOps3 (W6 m ρ c) (Proc.devRef .tc main_v0) = _
  after_results
  exact W6_v0 m ρ c

theorem V7_v60 : (V7 m ρ c main_v60 : S64x128.Idx → EReal)
    = extractStridedSlice S64x128 ![0, 0] (m ((c.tc : Thread nD τ).loc main_arg16)) slices_S128x128_S64x128_0_0 := by
  show StableHlo.after hostOps3 (W6 m ρ c) (Proc.devRef .tc main_v60) = _
  after_results
  rw [W6_arg16]

theorem V7_v61 : (V7 m ρ c main_v61 : S64x128.Idx → EReal)
    = extractStridedSlice S64x128 ![64, 0] (m ((c.tc : Thread nD τ).loc main_arg16)) slices_S128x128_S64x128_64_0 := by
  show StableHlo.after hostOps3 (W6 m ρ c) (Proc.devRef .tc main_v61) = _
  after_results
  rw [W6_arg16]

theorem V7_v62 : (V7 m ρ c main_v62 : S1x128.Idx → EReal) = Cert.ReferenceIdeal.Read.val_main_v76 (F := Ideal) (m ((c.tc : Thread nD τ).loc main_arg17)) := by
  show StableHlo.after hostOps3 (W6 m ρ c) (Proc.devRef .tc main_v62) = _
  after_results
  rw [W6_arg17]
  exact Cert.Lib.UnitAxisCast.shapeCast_row 128 (m ((c.tc : Thread nD τ).loc main_arg17)) _ _

theorem V7_arg18 : (V7 m ρ c main_arg18 : S128x64.Idx → EReal) = (m ((c.tc : Thread nD τ).loc main_arg18)) := by
  show StableHlo.after hostOps3 (W6 m ρ c) (Proc.devRef .tc main_arg18) = _
  after_results
  exact W6_arg18 m ρ c

theorem V7_v63 : (V7 m ρ c main_v63 : S1x64.Idx → EReal) = Cert.ReferenceIdeal.Read.val_main_v81 (F := Ideal) (m ((c.tc : Thread nD τ).loc main_arg19)) := by
  show StableHlo.after hostOps3 (W6 m ρ c) (Proc.devRef .tc main_v63) = _
  after_results
  rw [W6_arg19]
  exact Cert.Lib.UnitAxisCast.shapeCast_row 64 (m ((c.tc : Thread nD τ).loc main_arg19)) _ _

/-! ## The result -/

/-- The result array at the return is the reference's result stage of the arguments. -/
theorem result : (W8 m ρ c (Proc.devRef .tc main_v64) : S200000x64.Idx → EReal)
    = Cert.ReferenceIdeal.Read.val_main_v83 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) := by
  refine ((W8_arr m ρ c 7).trans (Region3.final (V7 m ρ) c)).trans ?_
  unfold Region3.outArr
  rw [V7_v59, V7_v0, V7_v60, V7_v61, V7_v62, V7_arg18, V7_v63]
  exact (Cert.ReferenceIdeal.Stages3.upd_eq _ _ _ _ _ _ _ _ _ _ _ _ _ _ _ _ _ _ _ _ _ _).symm

end Cert.KernelIdeal.Glue

end
-- ==== Proof.Claims.lean ====
/-
  The five claims. Both programs compute, on the extended reals, one function of the arguments: three rounds of
  gather, a two-layer perceptron on every gathered row, scatter-add of the messages back to their nodes, and an update
  perceptron of the summed messages beside the node table. The kernel runs the four perceptrons as pipelined regions on
  blocks of rows with narrower formats in between (the identity on the extended reals) and splits the update's first
  product into the products with the two halves of its matrix; the reference runs them as whole-array host operations
  on the joined array. The frames of the two kernel programs are the generated ones; the reference's frame is its run
  with the result dropped; the ideal pass rewrote nothing, so its claim is trivial; and the two results are equal
  because the kernel's result array is the reference's result stage of the same arguments.
-/
import proofs.«163699_j52776558133695_2_alg».proof.Defs
import proofs.«163699_j52776558133695_2_alg».proof.Proof.Gen.Kernel.Frame
import proofs.«163699_j52776558133695_2_alg».proof.Proof.Gen.KernelIdeal.Frame
import proofs.«163699_j52776558133695_2_alg».proof.Proof.Gen.ReferenceIdeal.Run
import proofs.«163699_j52776558133695_2_alg».proof.Proof.Gen.ReferenceIdeal.Read
import proofs.«163699_j52776558133695_2_alg».proof.Proof.Gen.Pre_finite_inputs
import proofs.«163699_j52776558133695_2_alg».proof.Proof.ValueRun
import proofs.«163699_j52776558133695_2_alg».proof.Proof.GlueD

noncomputable section

namespace Cert.Proof.Claims

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments both programs end with the reference's result term: the reference by
    its run, the kernel because its folded result array is the reference's result stage of the arguments. -/
theorem algebraic : Cert.algebraic_KernelIdeal_ReferenceIdeal := by
  intro m ρ m' ρ' _ hagree
  refine ⟨fun c => Cert.ReferenceIdeal.Value.res_main_v83 m' c, ?_, Cert.ReferenceIdeal.Value.run (F := Ideal) m' ρ'⟩
  refine (θ_run Cert.KernelIdeal.defs _ _).mono (fun r h c => ⟨(h c).1.trans ?_, (h c).2⟩)
    (Cert.KernelIdeal.ValueRun.run_value (F := Ideal) m ρ)
  obtain ⟨h0, h1, h2, h3, h4, h5, h6, h7, h8, h9, h10, h11, h12, h13, h14, h15, h16, h17, h18, h19⟩ := hagree c
  show Cert.KernelIdeal.Gen.W8 m ρ c (Proc.devRef .tc Cert.KernelIdeal.main_v64) = Cert.ReferenceIdeal.Value.res_main_v83 m' c
  rw [Cert.ReferenceIdeal.Read.val_main_v83_eq, h0, h1, h2, h3, h4, h5, h6, h7, h8, h9, h10, h11, h12, h13, h14, h15, h16, h17, h18, h19]
  exact Cert.KernelIdeal.Glue.result m ρ c

end Cert.Proof.Claims

end
-- ==== Proof.lean ====
/-
  `Cert.Claim`: the kernel (four pipelined perceptron regions among host gathers and scatter-adds) against its jnp
  reference, equal on the extended reals. The witnesses of the programs' stated facts are the generated instances; the
  five claims are proved in Proof/Claims.lean, over one module per region (what the region leaves in its output array),
  one per stretch of host operations between regions (the buffer contents read against the reference's stages) and the
  reference's stages read as the same perceptrons.
-/
import proofs.«163699_j52776558133695_2_alg».proof.Defs
import proofs.«163699_j52776558133695_2_alg».proof.Proof.Gen.Kernel
import proofs.«163699_j52776558133695_2_alg».proof.Proof.Gen.Kernel.Skeleton
import proofs.«163699_j52776558133695_2_alg».proof.Proof.Gen.Kernel.Launch
import proofs.«163699_j52776558133695_2_alg».proof.Proof.Gen.Kernel.Points
import proofs.«163699_j52776558133695_2_alg».proof.Proof.Gen.Kernel.Frame
import proofs.«163699_j52776558133695_2_alg».proof.Proof.Gen.KernelIdeal
import proofs.«163699_j52776558133695_2_alg».proof.Proof.Gen.KernelIdeal.Skeleton
import proofs.«163699_j52776558133695_2_alg».proof.Proof.Gen.KernelIdeal.Launch
import proofs.«163699_j52776558133695_2_alg».proof.Proof.Gen.KernelIdeal.Points
import proofs.«163699_j52776558133695_2_alg».proof.Proof.Gen.KernelIdeal.Frame
import proofs.«163699_j52776558133695_2_alg».proof.Proof.Gen.ReferenceIdeal
import proofs.«163699_j52776558133695_2_alg».proof.Proof.Gen.Pre_finite_inputs
import proofs.«163699_j52776558133695_2_alg».proof.Proof.Gen.ReferenceIdeal.Run
import proofs.«163699_j52776558133695_2_alg».proof.Proof.Gen.ReferenceIdeal.Read
import proofs.«163699_j52776558133695_2_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
